-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 2048, 256]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 2048, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x512x256 .f32) (main_arg1 : FVec F S4x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Pre_finite_inputs_ReferenceIdeal.lean ====
abbrev S4x2048x256 : Shape := ⟨3, ![4, 2048, 256]⟩
abbrev S4x256 : Shape := ⟨2, ![4, 256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x2048x256 .f32) (main_arg1 : FVec F S4x256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x512x256 : Shape := ⟨3, ![4, 512, 256]⟩
abbrev S4x256 : Shape := ⟨2, ![4, 256]⟩
abbrev S4x3x256 : Shape := ⟨3, ![4, 3, 256]⟩
abbrev S4x515x256 : Shape := ⟨3, ![4, 515, 256]⟩
abbrev S_ : Shape := ⟨0, ![]⟩
abbrev S1x256 : Shape := ⟨2, ![1, 256]⟩
abbrev S256 : Shape := ⟨1, ![256]⟩
abbrev S1x1x256 : Shape := ⟨3, ![1, 1, 256]⟩
abbrev S4x1x256 : Shape := ⟨3, ![4, 1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .f32⟩
  | .local _ .vmem, ⟨0, _⟩ => ⟨S4x512x256, .f32⟩
  | .local _ .vmem, ⟨1, _⟩ => ⟨S4x256, .f32⟩
  | .local _ .vmem, ⟨2, _⟩ => ⟨S4x512x256, .f32⟩
  | .local _ .vmem, ⟨3, _⟩ => ⟨S4x3x256, .f32⟩
  | .local _ .vmem, ⟨4, _⟩ => ⟨S4x3x256, .f32⟩
  | .local _ .vmem, ⟨5, _⟩ => ⟨S4x515x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  { ofTc nBuf bufTy 1 5 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v33 : BitVec 32 := Scalar.muli v24 c1_i32_21
  let v34 : BitVec 32 := Scalar.addi c0_i32_22 v33
  v34.toNat
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x512x256_S4x3x256_0_509_0 : ∀ a, (![0, 509, 0] : Fin 3 → Nat) a + S4x3x256.size a ≤ S4x512x256.size a
  h_S4x3x256 : 0 < S4x3x256.numel
  shapeCasts_S4x3x256_S4x3x256 : S4x3x256.ShapeCasts S4x3x256
  inb_S4x3x256_S4x3x256_0_0_0 : ∀ a, (![0, 0, 0] : Fin 3 → Nat) a + S4x3x256.size a ≤ S4x3x256.size a
  inb_S4x515x256_S4x3x256_0_0_0 : ∀ a, (![0, 0, 0] : Fin 3 → Nat) a + S4x3x256.size a ≤ S4x515x256.size a
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  inb_S4x515x256_S4x512x256_0_3_0 : ∀ a, (![0, 3, 0] : Fin 3 → Nat) a + S4x512x256.size a ≤ S4x515x256.size a
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x515x256_S4x512x256_0_0_0 : ∀ a, (![0, 0, 0] : Fin 3 → Nat) a + S4x512x256.size a ≤ S4x515x256.size a
  slices_S4x256_o0_0_S1x256 : S4x256.Slices ![0, 0] S1x256
  shapeCasts_S1x256_S256 : S1x256.ShapeCasts S256
  shapeCasts_S256_S1x1x256 : S256.ShapeCasts S1x1x256
  broadcasts_S1x1x256_S4x512x256 : S1x1x256.Broadcasts S4x512x256
  inb_S4x515x256_S4x512x256_0_1_0 : ∀ a, (![0, 1, 0] : Fin 3 → Nat) a + S4x512x256.size a ≤ S4x515x256.size a
  slices_S4x256_o1_0_S1x256 : S4x256.Slices ![1, 0] S1x256
  inb_S4x515x256_S4x512x256_0_2_0 : ∀ a, (![0, 2, 0] : Fin 3 → Nat) a + S4x512x256.size a ≤ S4x515x256.size a
  slices_S4x256_o2_0_S1x256 : S4x256.Slices ![2, 0] S1x256
  slices_S4x256_o3_0_S1x256 : S4x256.Slices ![3, 0] S1x256
  slices_S4x3x256_o0_0_0_S4x1x256 : S4x3x256.Slices ![0, 0, 0] S4x1x256
  broadcasts_S1x1x256_S4x1x256 : S1x1x256.Broadcasts S4x1x256
  slices_S4x3x256_o0_1_0_S4x1x256 : S4x3x256.Slices ![0, 1, 0] S4x1x256
  slices_S4x3x256_o0_2_0_S4x1x256 : S4x3x256.Slices ![0, 2, 0] S4x1x256
  concatenates_S4x1x256_S4x1x256_S4x1x256_S4x3x256_d1 : Shape.Concatenates [S4x1x256, S4x1x256, S4x1x256] S4x3x256 1
  slices_S4x512x256_o0_0_0_S4x3x256 : S4x512x256.Slices ![0, 0, 0] S4x3x256
  inb_S4x512x256_S4x3x256_0_0_0 : ∀ a, (![0, 0, 0] : Fin 3 → Nat) a + S4x3x256.size a ≤ S4x512x256.size a
  hcc0_scratch3 : 3 + S_.numel ≤ 5
  hcc0_scratch4 : 4 + S_.numel ≤ 5
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole
  hstage0_2 : ∀ j, (stage0_2 j).IsWhole

variable [Facts₀]

abbrev cc0_scratch3 : DmaSems sig S_ := SemArray.consecutive 3 S_ hcc0_scratch3
abbrev cc0_scratch4 : DmaSems sig S_ := SemArray.consecutive 4 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x256 : Shape := ⟨3, ![4, 2048, 256]⟩
abbrev S4x256 : Shape := ⟨2, ![4, 256]⟩
abbrev S_ : Shape := ⟨0, ![]⟩
abbrev S4x3x256 : Shape := ⟨3, ![4, 3, 256]⟩
abbrev S4x2051x256 : Shape := ⟨3, ![4, 2051, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x2051x256, .f32⟩
  | .hbm, ⟨5, _⟩ => ⟨S_, .f32⟩
  | .hbm, ⟨6, _⟩ => ⟨S4x2048x256, .f32⟩
  | .hbm, ⟨7, _⟩ => ⟨S4x2048x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x2048x256, .f32⟩
  | .hbm, ⟨12, _⟩ => ⟨S4x2048x256, .f32⟩
  | .hbm, ⟨13, _⟩ => ⟨S4x2048x256, .f32⟩
  | .hbm, ⟨14, _⟩ => ⟨S4x2048x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x2048x256, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x2048x256, .f32⟩
  | .hbm, ⟨26, _⟩ => ⟨S4x2048x256, .f32⟩
  | .hbm, ⟨27, _⟩ => ⟨S4x2048x256, .f32⟩
  | .hbm, ⟨28, _⟩ => ⟨S4x2048x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S_, .f32⟩
  | .hbm, ⟨38, _⟩ => ⟨S4x2048x256, .f32⟩
  | .hbm, ⟨39, _⟩ => ⟨S4x2048x256, .f32⟩
  | .hbm, ⟨40, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  bcast_S_S4x3x256 : S_.BroadcastsInDim S4x3x256 (![] : Fin 0 → Fin S4x3x256.rank)
  concatenates_S4x3x256_S4x2048x256_S4x2051x256_d1 : Shape.Concatenates [S4x3x256, S4x2048x256] S4x2051x256 1
  bcast_S_S4x2048x256 : S_.BroadcastsInDim S4x2048x256 (![] : Fin 0 → Fin S4x2048x256.rank)
  slices_S4x2051x256_S4x2048x256_0_0_0 : S4x2051x256.Slices ![0, 0, 0] S4x2048x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  slices_S4x2051x256_S4x2048x256_0_1_0 : S4x2051x256.Slices ![0, 1, 0] S4x2048x256
  slices_S4x256_S1x256_1_0 : S4x256.Slices ![1, 0] S1x256
  slices_S4x2051x256_S4x2048x256_0_2_0 : S4x2051x256.Slices ![0, 2, 0] S4x2048x256
  slices_S4x256_S1x256_2_0 : S4x256.Slices ![2, 0] S1x256
  slices_S4x2051x256_S4x2048x256_0_3_0 : S4x2051x256.Slices ![0, 3, 0] S4x2048x256
  slices_S4x256_S1x256_3_0 : S4x256.Slices ![3, 0] S1x256

variable [Facts₀]

class Facts : Prop extends Facts₀ where

variable [Facts]
-- ==== Proof.RefFrame.lean ====
/-
  The reference on one device: a zero-padded four-tap causal convolution along the sequence axis,
  out[b, s, c] = Σ_t pad[b, s + t, c] · k[t, c] with pad = [0, 0, 0, x], followed by out / (1 + exp(−out)).
  Its run, every result a pure term of the argument arrays, is the generated module's; the frame is that run
  with the value dropped.
-/
import proofs.«900354_g7700000000000355_dist_gconv1d_seqshard_i_b4_s512_c256_v7x_i4_f32_1_alg».proof.Defs
import proofs.«900354_g7700000000000355_dist_gconv1d_seqshard_i_b4_s512_c256_v7x_i4_f32_1_alg».proof.Proof.Gen.ReferenceIdeal.Read

noncomputable section

open Idealize.ShloMosaic Idealize.ShloMosaic.TcCoe Idealize.SL.Sem

namespace Cert.Proof.RefSide

/-- The reference terminates without a fault and leaves its two argument arrays as it found them. -/
theorem frame_ref [Cert.Pre_finite_inputs_ReferenceIdeal.Facts] : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

end Cert.Proof.RefSide

end
-- ==== Proof.Spec.lean ====
/-
  What one device computes, as pure functions of three arrays: its own block `x` of the sequence (4 × 512 × 256), the
  four taps `k` (4 × 256) and the block `xp` of the device before it on the ring.

  The convolution is causal along the sequence axis: out[b, s, c] = Σ_t pad[b, s + t, c] · k[t, c], where `pad` is the
  block with three rows put in front of it. Inside one device those three rows are zero, so every row s ≥ 3 is already
  right, and the rows s < 3 miss exactly the terms that reach into the previous block: its last three rows, which the
  neighbour sends. The first device has no predecessor and takes zeros instead. Every entry is then multiplied by its
  logistic.
-/
import proofs.«900354_g7700000000000355_dist_gconv1d_seqshard_i_b4_s512_c256_v7x_i4_f32_1_alg».proof.Proof.Gen.KernelIdeal.Skeleton
import Idealize.ShloMosaic.Lib.ValueIdx

noncomputable section

namespace Cert.KernelIdeal.Halo

open Idealize.ShloMosaic Idealize.ShloMosaic.ValueIdx Cert.KernelIdeal Cert.KernelIdeal.Gen

variable {F : FTy → Type} [FloatOps F]

/-- The ring of four devices: the one after and the one before. -/
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- A device's position on the mesh axis as the body computes it (the word the first-device test reads). -/
def posWord (c : Dev nD) : BitVec 32 := Scalar.remsi (Scalar.divsi (Dev.word c) 1#32) 4#32

/-- The float zero both paddings are made of. -/
def zeroF : F .f32 := Scalar.ofBits .f32 0x00000000#32

/-- The last three rows of a block: rows 509, 510, 511. -/
def tailOf (x : S4x512x256.Idx → F .f32) : S4x3x256.Idx → F .f32 :=
  fun j => x (ix3 (j 0) ⟨509 + (j 1).val, by have h3 : (j 1).val < 3 := (j 1).isLt; omega⟩ (j 2))

/-- The block with three zero rows in front: 515 rows. -/
def padOf (x : S4x512x256.Idx → F .f32) : S4x515x256.Idx → F .f32 :=
  fun i => if h : (i 1).val < 3 then zeroF
    else x (ix3 (i 0) ⟨(i 1).val - 3, by have h515 : (i 1).val < 515 := (i 1).isLt; omega⟩ (i 2))

/-- The padded block read from row `t` on: 512 rows, row `s` of it is row `s + t` of the padded block. -/
def winOf (t : Fin 4) (x : S4x512x256.Idx → F .f32) : S4x512x256.Idx → F .f32 :=
  fun j => padOf x (ix3 (j 0) ⟨(j 1).val + t.val, by have h512 : (j 1).val < 512 := (j 1).isLt; have := t.isLt; omega⟩ (j 2))

/-- The four-tap sum over the device's own padded block, every row (the rows below 3 still miss the neighbour's part). -/
def accOf (x : S4x512x256.Idx → F .f32) (k : S4x256.Idx → F .f32) : FVec F S4x512x256 .f32 :=
  k0_pay8 (k0_pay5 k) (k0_pay6 k (winOf 0 x) (winOf 1 x)) (winOf 2 x) (k0_pay7 k) (winOf 3 x)

/-- That sum times its logistic: what the device first writes to all 512 rows. -/
def fullOf (x : S4x512x256.Idx → F .f32) (k : S4x256.Idx → F .f32) : FVec F S4x512x256 .f32 :=
  k0_pay9 (k0_pay5 k) (k0_pay6 k (winOf 0 x) (winOf 1 x)) (winOf 2 x) (k0_pay7 k) (winOf 3 x)

/-- The first three rows redone with the received rows `h` (zeroed on the first device): what the device writes last. -/
def headOf (w : BitVec 32) (x : S4x512x256.Idx → F .f32) (k : S4x256.Idx → F .f32) (h : S4x3x256.Idx → F .f32) : FVec F S4x3x256 .f32 :=
  k0_pay1 (k0_pay5 k) (accOf x k) (k0_pay10 w h) (k0_pay11 w (k0_pay5 k) h) (k0_pay12 w h) (k0_pay13 (k0_pay5 k))

/-- Device `c`'s result block: rows 0–2 from `headOf` with the previous block's last rows, rows 3–511 from `fullOf`. -/
def outOf (c : Dev nD) (x : S4x512x256.Idx → F .f32) (k : S4x256.Idx → F .f32) (xp : S4x512x256.Idx → F .f32) : S4x512x256.Idx → F .f32 :=
  fun j => if h : (j 1).val < 3 then headOf (posWord c) x k (tailOf xp) (ix3 (j 0) ⟨(j 1).val, h⟩ (j 2)) else fullOf x k j

end Cert.KernelIdeal.Halo

end
-- ==== Proof.Ring.lean ====
/-
  The protocol of the four devices, written down before the body is stepped.

  Three semaphores per device matter. The BARRIER semaphore of device c is signalled once, by the device after it
  (nxt c), as that device's first action: the signal says "my landing buffer exists and nobody else writes it", and with
  it nxt c hands over the landing buffer itself. Device c waits for that one unit and only then starts its copy of its
  last three rows into nxt c's landing buffer. The copy pays two cells: the SEND cell of c (the source has been read: c
  gets its send buffer back, contents unchanged) and the RECEIVE cell of nxt c (the destination is written: nxt c gets its
  landing buffer back, now holding c's last three rows). Every cell has one round with one duty.

  Deadlock freedom is by levels: a barrier cell sits at 1, a receive cell at 2, everything else at 0. A device waits on
  its barrier while it owes only a receive cell (above), and waits on its send and receive cells owing nothing.
-/
import proofs.«900354_g7700000000000355_dist_gconv1d_seqshard_i_b4_s512_c256_v7x_i4_f32_1_alg».proof.Proof.Spec
import proofs.«900354_g7700000000000355_dist_gconv1d_seqshard_i_b4_s512_c256_v7x_i4_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging cells' copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

theorem nxt_ne_self (c : Dev nD) : nxt c ≠ c := by revert c; decide
def ring : Dev nD ≃ Dev nD := ⟨nxt, prv, prv_nxt, nxt_prv⟩

/-- The device the first signal names is the one before; the copy goes to the one after. -/
theorem dev1_eq (c : Dev nD) : (⟨k0_dev1 c, k0_dev1_lt c⟩ : Dev nD) = prv c :=
  Fin.ext ((by decide +kernel : ∀ c : Dev nD, k0_dev1 c = (c.val + 3) % 4) c)
theorem dev2_eq (c : Dev nD) : (⟨k0_dev2 c, k0_dev2_lt c⟩ : Dev nD) = nxt c :=
  Fin.ext ((by decide +kernel : ∀ c : Dev nD, k0_dev2 c = (c.val + 1) % 4) c)

/-! ## The buffers and the cells -/

abbrev xM : Memref sig .tc .vmem S4x512x256 .f32 := Memref.whole cc0_stg0_0
abbrev kM : Memref sig .tc .vmem S4x256 .f32 := Memref.whole cc0_stg1_0
abbrev oM : Memref sig .tc .vmem S4x512x256 .f32 := Memref.whole cc0_stg2_0
/-- The send buffer (the last three rows, staged), the landing buffer, the padded block. -/
abbrev sM : Memref sig .tc .vmem S4x3x256 .f32 := Memref.whole cc0_scratch0
abbrev hM : Memref sig .tc .vmem S4x3x256 .f32 := Memref.whole cc0_scratch1
abbrev pM : Memref sig .tc .vmem S4x515x256 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the ring's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x256 .f32).view.dmaCredit
theorem N_pos : 0 < N := View.dmaCredit_pos _ (by decide)

/-! ## Contents -/

/-- Device c's block of the sequence and its copy of the taps, as launched. -/
def xOf (c : Dev nD) : S4x512x256.Idx → F .f32 := m ((c : Thread nD τ).loc main_arg0)
def kOf (c : Dev nD) : S4x256.Idx → F .f32 := m ((c : Thread nD τ).loc main_arg1)

/-- What lands on device c, as the copy writes it over whatever the landing buffer held (`fd`): the send buffer of the
    device before it, which holds that device's last three rows. -/
def landedOn (c : Dev nD) (fd : Buf (Elt F) ((hM : Memref sig .tc .vmem S4x3x256 .f32).view.loc (c : Thread nD τ))) :
    Buf (Elt F) ((hM : Memref sig .tc .vmem S4x3x256 .f32).view.loc (c : Thread nD τ)) :=
  (hM : Memref sig .tc .vmem S4x3x256 .f32).view.write (Elt F) fd ((sM : Memref sig .tc .vmem S4x3x256 .f32).view.read (Elt F) (tailOf (xOf m (prv c)))) Finset.univ

omit [FloatOps F] in
theorem landed_eq (c : Dev nD) (fd : Buf (Elt F) ((hM : Memref sig .tc .vmem S4x3x256 .f32).view.loc (c : Thread nD τ))) (fs : (cc0_scratch0 : Ref sig .tc).ty.Contents (Elt F)) :
    (hM : Memref sig .tc .vmem S4x3x256 .f32).view.write (Elt F) fd ((sM : Memref sig .tc .vmem S4x3x256 .f32).view.read (Elt F) fs) Finset.univ = fs := by
  show (View.whole cc0_scratch1).write (Elt F) fd ((View.whole cc0_scratch0).read (Elt F) fs) Finset.univ = fs
  rw [View.read_whole]
  exact View.write_whole_univ _ _ _

omit [FloatOps F] in
/-- Whatever the landing buffer held, after the copy it holds the last three rows of the block before. -/
theorem landedOn_eq (c : Dev nD) (fd) : landedOn m c fd = (tailOf (xOf m (prv c)) : S4x3x256.Idx → F .f32) := by
  unfold landedOn; exact landed_eq c fd _

def haloPts (c : Dev nD) (f : Buf (Elt F) ((hM : Memref sig .tc .vmem S4x3x256 .f32).view.loc (c : Thread nD τ))) : sProp 𝕄 :=
  (hM : Memref sig .tc .vmem S4x3x256 .f32).view.loc (c : Thread nD τ) ↦[(hM : Memref sig .tc .vmem S4x3x256 .f32).view.set]{fullShare} f
def sendPts (c : Dev nD) (f : Buf (Elt F) ((sM : Memref sig .tc .vmem S4x3x256 .f32).view.loc (c : Thread nD τ))) : sProp 𝕄 :=
  (sM : Memref sig .tc .vmem S4x3x256 .f32).view.loc (c : Thread nD τ) ↦[(sM : Memref sig .tc .vmem S4x3x256 .f32).view.set]{fullShare} f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

omit [FloatOps F] in
theorem halo_set : (hM : Memref sig .tc .vmem S4x3x256 .f32).view.set = Finset.univ := View.set_whole _
omit [FloatOps F] in
theorem send_set : (sM : Memref sig .tc .vmem S4x3x256 .f32).view.set = Finset.univ := View.set_whole _
omit [FloatOps F] in
theorem haloPts_eq (c : Dev nD) (f : Buf (Elt F) ((c : Thread nD τ).loc cc0_scratch1)) :
    haloPts c f = (((c : Thread nD τ).loc cc0_scratch1) ↦{fullShare} f : sProp 𝕄) := by unfold haloPts; rw [halo_set]
omit [FloatOps F] in
theorem sendPts_eq (c : Dev nD) (f : Buf (Elt F) ((c : Thread nD τ).loc cc0_scratch0)) :
    sendPts c f = (((c : Thread nD τ).loc cc0_scratch0) ↦{fullShare} f : sProp 𝕄) := by unfold sendPts; rw [send_set]

/-! ## The schedule -/

/-- What nxt c's signal hands c: nxt c's landing buffer (any contents) and that nxt c stands at round 0 of its receive cell. -/
def barPay (c : Dev nD) : sProp 𝕄 := iprop((∃ f, haloPts (nxt c) f) ∗ reached ER (recvCell (nxt c)) 0)
def recvPay (c : Dev nD) : sProp 𝕄 := iprop(∃ fd, haloPts c (landedOn m c fd))
def sendPay (c : Dev nD) : sProp 𝕄 := iprop(∃ f, sendPts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty per cell: a barrier cell one unit, a send or receive cell the copy's credit. -/
def haloRd : Rounds.Schedule (GSem nD τ sig) Bool 𝕄 where
  duties g r := if r = 0 ∧ (IsBar g ∨ IsXfer g) then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then barPay g.1.1 else if g.2 = .dma recvS.sem then recvPay m g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (haloRd (F := F) m).duties (barCell c) 0 = {false} := by dsimp only [haloRd]; exact if_pos ⟨rfl, .inl ⟨rfl, rfl⟩⟩
omit [FloatOps F] in
theorem duties_send : (haloRd (F := F) m).duties (sendCell c) 0 = {false} := by dsimp only [haloRd]; exact if_pos ⟨rfl, .inr ⟨rfl, .inl rfl⟩⟩
omit [FloatOps F] in
theorem duties_recv : (haloRd (F := F) m).duties (recvCell c) 0 = {false} := by dsimp only [haloRd]; exact if_pos ⟨rfl, .inr ⟨rfl, .inr rfl⟩⟩
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Bool) : (haloRd (F := F) m).amount (barCell c) 0 d = 1 := by dsimp only [haloRd]; exact if_pos rfl
omit [FloatOps F] in
theorem amount_send (d : Bool) : (haloRd (F := F) m).amount (sendCell c) 0 d = N := by dsimp only [haloRd]; exact if_neg send_ne_bar
omit [FloatOps F] in
theorem amount_recv (d : Bool) : (haloRd (F := F) m).amount (recvCell c) 0 d = N := by dsimp only [haloRd]; exact if_neg recv_ne_bar

omit [FloatOps F] in
theorem expect_bar : (haloRd (F := F) m).expect (barCell c) 0 = 1 := by
  unfold Schedule.expect Schedule.amountOf; rw [duties_bar, Finset.sum_singleton, amount_bar]
omit [FloatOps F] in
theorem expect_send : (haloRd (F := F) m).expect (sendCell c) 0 = N := by
  unfold Schedule.expect Schedule.amountOf; rw [duties_send, Finset.sum_singleton, amount_send]
omit [FloatOps F] in
theorem expect_recv : (haloRd (F := F) m).expect (recvCell c) 0 = N := by
  unfold Schedule.expect Schedule.amountOf; rw [duties_recv, Finset.sum_singleton, amount_recv]

omit [FloatOps F] in
theorem payload_bar (d : Bool) : (haloRd (F := F) m).payload (barCell c) 0 d = barPay c := by dsimp only [haloRd]; rw [if_pos rfl]
omit [FloatOps F] in
/-- The same entry for the cell of the device before c, spelt with c itself: the landing buffer handed over is c's own. -/
theorem payload_bar_prv (d : Bool) : (haloRd (F := F) m).payload (barCell (prv c)) 0 d = iprop((∃ f, haloPts c f) ∗ reached ER (recvCell c) 0) := by
  rw [payload_bar]; unfold barPay; rw [nxt_prv]
omit [FloatOps F] in
theorem payload_send (d : Bool) : (haloRd (F := F) m).payload (sendCell c) 0 d = sendPay c := by
  dsimp only [haloRd]; rw [if_neg send_ne_bar, if_neg send_ne_recv, if_pos rfl]
omit [FloatOps F] in
theorem payload_recv (d : Bool) : (haloRd (F := F) m).payload (recvCell c) 0 d = recvPay m c := by
  dsimp only [haloRd]; rw [if_neg recv_ne_bar, if_pos rfl]

omit [FloatOps F] in
theorem rest_bar : bigSep ((haloRd (F := F) m).duties (barCell c) 0 \ ∅) (fun d => (haloRd (F := F) m).payload (barCell c) 0 d) = barPay c := by
  rw [Finset.sdiff_empty, duties_bar, bigSep_singleton, payload_bar]
omit [FloatOps F] in
theorem rest_send : bigSep ((haloRd (F := F) m).duties (sendCell c) 0 \ ∅) (fun d => (haloRd (F := F) m).payload (sendCell c) 0 d) = sendPay c := by
  rw [Finset.sdiff_empty, duties_send, bigSep_singleton, payload_send]
omit [FloatOps F] in
theorem rest_recv : bigSep ((haloRd (F := F) m).duties (recvCell c) 0 \ ∅) (fun d => (haloRd (F := F) m).payload (recvCell c) 0 d) = recvPay m c := by
  rw [Finset.sdiff_empty, duties_recv, bigSep_singleton, payload_recv]

end Sched

/-! ## What each device owes at launch; the levels -/

/-- Device c owes nxt c's receive cell the copy's credit and prv c's barrier cell one unit (the first thing it pays). -/
def O₀ (c : Dev nD) : CellTallies nD τ sig Unit := tallyAt (recvCell (nxt c)) () N + tallyAt (barCell (prv c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (prv c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes nxt c's receive credit only: a receive cell, above its barrier cell. -/
theorem mayWait_bar (c : Dev nD) :
    (levAts L lv : sProp 𝕄) ⊢ MayWait (c : Thread nD τ) (.reg barS) () (tallyAt (recvCell (nxt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

end Cert.KernelIdeal.Halo

end
-- ==== Proof.MemRead.lean ====
/-
  What the body's loads read: a load of a whole buffer reads its contents, the load of three rows from row 509 reads the block's last
  three rows; a change of shape to the same shape is the identity; the position word.
-/
import proofs.«900354_g7700000000000355_dist_gconv1d_seqshard_i_b4_s512_c256_v7x_i4_f32_1_alg».proof.Proof.Ring
import Idealize.ShloMosaic.Lib.Pipeline.Value

noncomputable section

namespace Cert.KernelIdeal.Halo

open Cert.KernelIdeal Cert.KernelIdeal.Gen
open Idealize.ShloMosaic Idealize.ShloMosaic.ValueIdx
open Idealize.ShloMosaic.TcCoe

variable {F : FTy → Type} [FloatOps F]

omit [FloatOps F] in
theorem off3_zero : (![0, 0, 0] : Fin 3 → Nat) = fun _ => 0 := funext fun a => by fin_cases a <;> rfl
omit [FloatOps F] in
theorem off2_zero : (![0, 0] : Fin 2 → Nat) = fun _ => 0 := funext fun a => by fin_cases a <;> rfl

omit [FloatOps F] in
/-- A load of all 4 × 512 × 256 entries of the block's buffer reads its contents; -/
theorem read_x (X : S4x512x256.Idx → F .f32) :
    View.readAt (Elt F) (xM : Memref sig .tc .vmem S4x512x256 .f32).view
      (Rect.unit (s := S4x512x256) ![0, 0, 0] S4x512x256.size inb_S4x512x256_S4x512x256_0_0_0).toLoadRect X = X :=
  Memref.readAt_unit_zero (Elt F) cc0_stg0_0 off3_zero _ X

omit [FloatOps F] in
/-- likewise the taps' buffer -/
theorem read_k (K : S4x256.Idx → F .f32) :
    View.readAt (Elt F) (kM : Memref sig .tc .vmem S4x256 .f32).view
      (Rect.unit (s := S4x256) ![0, 0] S4x256.size inb_S4x256_S4x256_0_0).toLoadRect K = K :=
  Memref.readAt_unit_zero (Elt F) cc0_stg1_0 off2_zero _ K

omit [FloatOps F] in
/-- and the landing buffer. -/
theorem read_h (H : S4x3x256.Idx → F .f32) :
    View.readAt (Elt F) (hM : Memref sig .tc .vmem S4x3x256 .f32).view
      (Rect.unit (s := S4x3x256) ![0, 0, 0] S4x3x256.size inb_S4x3x256_S4x3x256_0_0_0).toLoadRect H = H :=
  Memref.readAt_unit_zero (Elt F) cc0_scratch1 off3_zero _ H

/-- A load of three rows from row 509 on reads the block's last three rows: the entry at (b, r, c) of the load is the entry at
    (b, 509 + r, c) of the block. -/
theorem read_tail (X : S4x512x256.Idx → F .f32) :
    View.readAt (Elt F) (xM : Memref sig .tc .vmem S4x512x256 .f32).view
      (Rect.unit (s := S4x512x256) ![0, 509, 0] S4x3x256.size inb_S4x512x256_S4x3x256_0_509_0).toLoadRect X = tailOf X := by
  funext j
  obtain ⟨a, b, c, rfl⟩ : ∃ (a : Fin 4) (b : Fin 3) (c : Fin 256), j = ix3 a b c := ⟨j 0, j 1, j 2, eq_ix3 j⟩
  rw [View.readAt_apply]
  show X _ = _
  unfold tailOf
  refine congrArg X (funext fun d => Fin.ext ?_)
  match d with
  | ⟨0, _⟩ => show 0 + 1 * a.val = a.val; omega
  | ⟨1, _⟩ => show 509 + 1 * b.val = 509 + b.val; omega
  | ⟨2, _⟩ => show 0 + 1 * c.val = c.val; omega

/-- A change of shape to the same shape changes nothing: the staged tail, -/
theorem pay2_eq (v : S4x3x256.Idx → F .f32) : k0_pay2 v = v :=
  (shapeCast_self _ _).trans (shapeCast_self _ _)
/-- and the block on its way into the padded buffer. -/
theorem pay4_eq (v : S4x512x256.Idx → F .f32) : k0_pay4 v = v :=
  (shapeCast_self _ _).trans (shapeCast_self _ _)

omit [FloatOps F] in
/-- The position word the body computes from the device's id is the one the specification names. -/
theorem pos_eq (c : Dev nD) :
    Scalar.remsi (Scalar.divsi (BitVec.ofNat 32 (Dev.tc c : Thread nD τ).1.val) 1#32) 4#32 = posWord c := rfl

end Cert.KernelIdeal.Halo

end
-- ==== Proof.MemPad.lean ====
/-
  The padded block. The body fills a 4 × 515 × 256 buffer by two stores, zeros into rows 0–2 and the block into rows 3–514; the two
  rectangles cover the buffer and each payload is the restriction of ONE function, `padOf x`, so the buffer holds `padOf x` and a load
  of 512 rows from row t on reads `winOf t x`.
-/
import proofs.«900354_g7700000000000355_dist_gconv1d_seqshard_i_b4_s512_c256_v7x_i4_f32_1_alg».proof.Proof.Ring
import Idealize.ShloMosaic.Lib.Pipeline.Value

noncomputable section

namespace Cert.KernelIdeal.Halo

open Cert.KernelIdeal Cert.KernelIdeal.Gen
open Idealize.ShloMosaic Idealize.ShloMosaic.ValueIdx
open Idealize.ShloMosaic.TcCoe

variable {F : FTy → Type} [FloatOps F]

/-- Every entry of the padded block is under one of the two stores: the first three rows under the store of zeros, the rest under the store of the block. -/
theorem pad_cover (X : S4x512x256.Idx → F .f32) (y : S4x515x256.Idx) :
    ∃ p ∈ ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32)),
      y ∈ p.1.set := by
  obtain ⟨a, b, c, rfl⟩ : ∃ (a : Fin 4) (b : Fin 515) (c : Fin 256), y = ix3 a b c := ⟨y 0, y 1, y 2, eq_ix3 y⟩
  have ha := a.isLt; have hb := b.isLt; have hc := c.isLt
  by_cases h : b.val < 3
  · refine ⟨⟨Rect.unit (s := S4x515x256) ![0, 0, 0] S4x3x256.size inb_S4x515x256_S4x3x256_0_0_0, k0_pay3 (F := F)⟩, List.mem_cons_of_mem _ List.mem_cons_self, (Rect.mem_set_unit (inb := inb_S4x515x256_S4x3x256_0_0_0)).mpr fun d => ?_⟩
    match d with
    | ⟨0, _⟩ => show 0 ≤ a.val ∧ a.val < 0 + 4; omega
    | ⟨1, _⟩ => show 0 ≤ b.val ∧ b.val < 0 + 3; omega
    | ⟨2, _⟩ => show 0 ≤ c.val ∧ c.val < 0 + 256; omega
  · refine ⟨⟨Rect.unit (s := S4x515x256) ![0, 3, 0] S4x512x256.size inb_S4x515x256_S4x512x256_0_3_0, X⟩, List.mem_cons_self, (Rect.mem_set_unit (inb := inb_S4x515x256_S4x512x256_0_3_0)).mpr fun d => ?_⟩
    match d with
    | ⟨0, _⟩ => show 0 ≤ a.val ∧ a.val < 0 + 4; omega
    | ⟨1, _⟩ => show 3 ≤ b.val ∧ b.val < 3 + 512; omega
    | ⟨2, _⟩ => show 0 ≤ c.val ∧ c.val < 0 + 256; omega

/-- Both stores write restrictions of the one padded block. -/
theorem pad_pieces (X : S4x512x256.Idx → F .f32) :
    ∀ p ∈ ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32)),
      ∀ x : p.1.shape.Idx, p.2 x = padOf X (p.1.emb x) := by
  refine List.forall_mem_cons.mpr ⟨fun x => ?_, List.forall_mem_cons.mpr ⟨fun x => ?_, fun _ h => absurd h List.not_mem_nil⟩⟩
  · obtain ⟨a, b, c, rfl⟩ : ∃ (a : Fin 4) (b : Fin 512) (c : Fin 256), x = ix3 a b c := ⟨x 0, x 1, x 2, eq_ix3 x⟩
    have hb := b.isLt
    have e : (Rect.unit (s := S4x515x256) ![0, 3, 0] S4x512x256.size inb_S4x515x256_S4x512x256_0_3_0).emb (ix3 a b c)
        = ix3 a (⟨b.val + 3, by omega⟩ : Fin 515) c := funext fun d => Fin.ext (by
      match d with
      | ⟨0, _⟩ => show 0 + 1 * a.val = a.val; omega
      | ⟨1, _⟩ => show 3 + 1 * b.val = b.val + 3; omega
      | ⟨2, _⟩ => show 0 + 1 * c.val = c.val; omega)
    show X (ix3 a b c) = padOf X _
    rw [e]
    unfold padOf
    rw [dif_neg (by show ¬ (b.val + 3 < 3); omega)]
    refine congrArg X (funext fun d => Fin.ext ?_)
    match d with
    | ⟨0, _⟩ => rfl
    | ⟨1, _⟩ => show b.val = b.val + 3 - 3; omega
    | ⟨2, _⟩ => rfl
  · obtain ⟨a, b, c, rfl⟩ : ∃ (a : Fin 4) (b : Fin 3) (c : Fin 256), x = ix3 a b c := ⟨x 0, x 1, x 2, eq_ix3 x⟩
    have hb := b.isLt
    have e : (Rect.unit (s := S4x515x256) ![0, 0, 0] S4x3x256.size inb_S4x515x256_S4x3x256_0_0_0).emb (ix3 a b c)
        = ix3 a (⟨b.val, by omega⟩ : Fin 515) c := funext fun d => Fin.ext (by
      match d with
      | ⟨0, _⟩ => show 0 + 1 * a.val = a.val; omega
      | ⟨1, _⟩ => show 0 + 1 * b.val = b.val; omega
      | ⟨2, _⟩ => show 0 + 1 * c.val = c.val; omega)
    show k0_pay3 (F := F) (ix3 a b c) = padOf X _
    rw [e]
    unfold padOf
    rw [dif_pos (by show b.val < 3; omega)]
    unfold k0_pay3
    rw [shapeCast_self]
    rfl

/-- The two stores leave the padded block. -/
theorem pad_canon (X : S4x512x256.Idx → F .f32) :
    View.canon ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32))
      = padOf X :=
  funext fun y => View.canon_apply_of_pieces (padOf X) _ (pad_pieces X) y (pad_cover X y)

/-- A load of 512 rows of the padded block from row `t` on. -/
theorem read_pad_at (t : Nat) (ht : t < 4) (X : S4x512x256.Idx → F .f32)
    (inb : ∀ a, (![0, t, 0] : Fin 3 → Nat) a + S4x512x256.size a ≤ S4x515x256.size a) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, t, 0] S4x512x256.size inb).toLoadRect
      = (winOf ⟨t, ht⟩ X : S4x512x256.Idx → F .f32) := by
  rw [View.readCov_eq_canon', pad_canon]
  funext j
  obtain ⟨a, b, c, rfl⟩ : ∃ (a : Fin 4) (b : Fin 512) (c : Fin 256), j = ix3 a b c := ⟨j 0, j 1, j 2, eq_ix3 j⟩
  refine congrArg (padOf X) (funext fun d => Fin.ext ?_)
  match d with
  | ⟨0, _⟩ => show 0 + 1 * a.val = a.val; omega
  | ⟨1, _⟩ => show t + 1 * b.val = b.val + t; omega
  | ⟨2, _⟩ => show 0 + 1 * c.val = c.val; omega

theorem read_pad0 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 0, 0] S4x512x256.size inb_S4x515x256_S4x512x256_0_0_0).toLoadRect
      = (winOf 0 X : S4x512x256.Idx → F .f32) := read_pad_at 0 (by omega) X _
theorem read_pad1 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 1, 0] S4x512x256.size inb_S4x515x256_S4x512x256_0_1_0).toLoadRect
      = (winOf 1 X : S4x512x256.Idx → F .f32) := read_pad_at 1 (by omega) X _
theorem read_pad2 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 2, 0] S4x512x256.size inb_S4x515x256_S4x512x256_0_2_0).toLoadRect
      = (winOf 2 X : S4x512x256.Idx → F .f32) := read_pad_at 2 (by omega) X _
theorem read_pad3 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 3, 0] S4x512x256.size inb_S4x515x256_S4x512x256_0_3_0).toLoadRect
      = (winOf 3 X : S4x512x256.Idx → F .f32) := read_pad_at 3 (by omega) X _

end Cert.KernelIdeal.Halo

end
-- ==== Proof.MemStore.lean ====
/-
  What the body's stores leave: one store of a whole buffer leaves its payload; a store of all 512 rows followed by a store of rows 0–2
  leaves the second payload in rows 0–2 and the first in rows 3–511. Newest store first: an entry under the newest rectangle reads its
  payload, any other entry reads what the earlier stores left.
-/
import proofs.«900354_g7700000000000355_dist_gconv1d_seqshard_i_b4_s512_c256_v7x_i4_f32_1_alg».proof.Proof.Ring
import Idealize.ShloMosaic.Lib.Pipeline.Value
import Idealize.ShloMosaic.Lib.WritesUnit

noncomputable section

namespace Cert.KernelIdeal.Halo

open Cert.KernelIdeal Cert.KernelIdeal.Gen
open Idealize.ShloMosaic Idealize.ShloMosaic.ValueIdx
open Idealize.ShloMosaic.TcCoe

variable {F : FTy → Type} [FloatOps F]

omit [FloatOps F] in
/-- The contents of a whole buffer are what is read through it. -/
theorem eq_of_read_whole {κ : Kind} (b : Ref sig κ) (f g : b.ty.Contents (Elt F))
    (h : (Memref.whole b : Memref sig κ _ _ _).view.read (Elt F) f = g) : f = g := h

omit [FloatOps F] in
/-- Through any view of a 4 × 512 × 256 buffer: after a store of all 512 rows and then a store of the first three rows, an entry of the
    first three rows reads the second payload, any other entry the first. -/
theorem read_two_stores {κ : Kind} {sp : Space} (v : View sig κ sp S4x512x256 .f32) (f : v.ty.Contents (Elt F))
    (inb3 : ∀ a, (![0, 0, 0] : Fin 3 → Nat) a + S4x3x256.size a ≤ S4x512x256.size a)
    (inb512 : ∀ a, (![0, 0, 0] : Fin 3 → Nat) a + S4x512x256.size a ≤ S4x512x256.size a)
    (H : S4x3x256.Idx → F .f32) (A : S4x512x256.Idx → F .f32) (y : S4x512x256.Idx) :
    v.read (Elt F) (v.writes (Elt F) f
      ([⟨Rect.unit (s := S4x512x256) ![0, 0, 0] S4x3x256.size inb3, H⟩,
        ⟨Rect.unit (s := S4x512x256) ![0, 0, 0] S4x512x256.size inb512, A⟩] : List (View.Piece (Elt F) S4x512x256 .f32))) y
      = if h : (y 1).val < 3 then H (ix3 (y 0) ⟨(y 1).val, h⟩ (y 2)) else A y := by
  by_cases h : (y 1).val < 3
  · rw [dif_pos h]
    refine View.read_writes_cons_unit_of_mem (Val := Elt F) v f (off := ![0, 0, 0]) (off' := ![0, 0, 0]) (size := S4x3x256.size) inb3 H _ y
      (ix3 (y 0) ⟨(y 1).val, h⟩ (y 2)) rfl fun d => ?_
    match d with
    | ⟨0, _⟩ => show (y 0).val = 0 + (y 0).val; omega
    | ⟨1, _⟩ => show (y 1).val = 0 + (y 1).val; omega
    | ⟨2, _⟩ => show (y 2).val = 0 + (y 2).val; omega
  · rw [dif_neg h]
    refine (View.read_writes_cons_unit_of_not_mem (Val := Elt F) v f (off := ![0, 0, 0]) (off' := ![0, 0, 0]) (size := S4x3x256.size) inb3 H _ y rfl
      (1 : Fin 3) (Or.inr ?_)).trans ?_
    · show 0 + 3 ≤ (y 1).val; omega
    · refine View.read_writes_cons_unit_of_mem (Val := Elt F) v f (off := ![0, 0, 0]) (off' := ![0, 0, 0]) (size := S4x512x256.size) inb512 A [] y y rfl fun d => ?_
      match d with
      | ⟨0, _⟩ => show (y 0).val = 0 + (y 0).val; omega
      | ⟨1, _⟩ => show (y 1).val = 0 + (y 1).val; omega
      | ⟨2, _⟩ => show (y 2).val = 0 + (y 2).val; omega

omit [FloatOps F] in
/-- Through any view of a 4 × 3 × 256 buffer: after one store of all of it every entry reads the payload. -/
theorem read_one_store {κ : Kind} {sp : Space} (v : View sig κ sp S4x3x256 .f32) (f : v.ty.Contents (Elt F))
    (inb : ∀ a, (![0, 0, 0] : Fin 3 → Nat) a + S4x3x256.size a ≤ S4x3x256.size a) (w : S4x3x256.Idx → F .f32) (y : S4x3x256.Idx) :
    v.read (Elt F) (v.writes (Elt F) f
      ([⟨Rect.unit (s := S4x3x256) ![0, 0, 0] S4x3x256.size inb, w⟩] : List (View.Piece (Elt F) S4x3x256 .f32))) y = w y := by
  refine View.read_writes_cons_unit_of_mem (Val := Elt F) v f (off := ![0, 0, 0]) (off' := ![0, 0, 0]) (size := S4x3x256.size) inb w [] y y rfl fun d => ?_
  match d with
  | ⟨0, _⟩ => show (y 0).val = 0 + (y 0).val; omega
  | ⟨1, _⟩ => show (y 1).val = 0 + (y 1).val; omega
  | ⟨2, _⟩ => show (y 2).val = 0 + (y 2).val; omega

omit [FloatOps F] in
/-- One store of all of the send buffer leaves its payload, whatever the buffer held. -/
theorem send_writes (c : Dev nD) (fs : Buf (Elt F) ((sM : Memref sig .tc .vmem S4x3x256 .f32).view.loc (c : Thread nD τ))) (w : S4x3x256.Idx → F .f32) :
    (sM : Memref sig .tc .vmem S4x3x256 .f32).view.writes (Elt F) fs
      [⟨Rect.unit (s := S4x3x256) ![0, 0, 0] S4x3x256.size inb_S4x3x256_S4x3x256_0_0_0, w⟩] = w := by
  refine eq_of_read_whole cc0_scratch0 _ _ ?_
  funext y
  exact read_one_store (sM : Memref sig .tc .vmem S4x3x256 .f32).view fs _ w y

omit [FloatOps F] in
/-- The result buffer after the store of all 512 rows and then of the first three: rows 0–2 hold the second payload, rows 3–511 the first,
    whatever the buffer held. -/
theorem out_writes (c : Dev nD) (fo : Buf (Elt F) ((oM : Memref sig .tc .vmem S4x512x256 .f32).view.loc (c : Thread nD τ)))
    (H : S4x3x256.Idx → F .f32) (A : S4x512x256.Idx → F .f32) :
    (oM : Memref sig .tc .vmem S4x512x256 .f32).view.writes (Elt F) fo
      [⟨Rect.unit (s := S4x512x256) ![0, 0, 0] S4x3x256.size inb_S4x512x256_S4x3x256_0_0_0, H⟩,
        ⟨Rect.unit (s := S4x512x256) ![0, 0, 0] S4x512x256.size inb_S4x512x256_S4x512x256_0_0_0, A⟩]
      = fun j : S4x512x256.Idx => if h : (j 1).val < 3 then H (ix3 (j 0) ⟨(j 1).val, h⟩ (j 2)) else A j := by
  refine eq_of_read_whole cc0_stg2_0 _ _ ?_
  funext y
  exact read_two_stores (oM : Memref sig .tc .vmem S4x512x256 .f32).view fo _ _ H A y

end Cert.KernelIdeal.Halo

end
-- ==== Proof.Mem.lean ====
/-
  What the buffers hold, read back as the plain functions of Spec: the send buffer after the store of the block's last
  three rows; the padded block read at the four row offsets; the result buffer after the whole-block store and the store
  of its first three rows.
-/
import proofs.«900354_g7700000000000355_dist_gconv1d_seqshard_i_b4_s512_c256_v7x_i4_f32_1_alg».proof.Proof.Ring
import proofs.«900354_g7700000000000355_dist_gconv1d_seqshard_i_b4_s512_c256_v7x_i4_f32_1_alg».proof.Proof.MemRead
import proofs.«900354_g7700000000000355_dist_gconv1d_seqshard_i_b4_s512_c256_v7x_i4_f32_1_alg».proof.Proof.MemPad
import proofs.«900354_g7700000000000355_dist_gconv1d_seqshard_i_b4_s512_c256_v7x_i4_f32_1_alg».proof.Proof.MemStore
import Idealize.ShloMosaic.Lib.Pipeline.Value

noncomputable section

namespace Cert.KernelIdeal.Halo

open Cert.KernelIdeal Cert.KernelIdeal.Gen
open Idealize.ShloMosaic Idealize.ShloMosaic.ValueIdx
open Idealize.ShloMosaic.TcCoe

variable {F : FTy → Type} [FloatOps F]

/-- The send buffer after the body's store holds the block's last three rows, whatever it held before. -/
theorem send_val (c : Dev nD) (fs : Buf (Elt F) ((sM : Memref sig .tc .vmem S4x3x256 .f32).view.loc (c : Thread nD τ))) (X : S4x512x256.Idx → F .f32) :
    (sM : Memref sig .tc .vmem S4x3x256 .f32).view.writes (Elt F) fs
      [⟨Rect.unit (s := S4x3x256) ![0, 0, 0] S4x3x256.size inb_S4x3x256_S4x3x256_0_0_0,
        shapeCast S4x3x256 (shapeCast S4x3x256 (View.readAt (Elt F) (xM : Memref sig .tc .vmem S4x512x256 .f32).view
          (Rect.unit (s := S4x512x256) ![0, 509, 0] S4x3x256.size inb_S4x512x256_S4x3x256_0_509_0).toLoadRect X) shapeCasts_S4x3x256_S4x3x256) shapeCasts_S4x3x256_S4x3x256⟩]
      = (tailOf X : S4x3x256.Idx → F .f32) := by
  refine (congrArg (fun w => (sM : Memref sig .tc .vmem S4x3x256 .f32).view.writes (Elt F) fs
    [⟨Rect.unit (s := S4x3x256) ![0, 0, 0] S4x3x256.size inb_S4x3x256_S4x3x256_0_0_0, w⟩]) ?_).trans (send_writes c fs (tailOf X))
  exact (shapeCast_self _ _).trans ((shapeCast_self _ _).trans (read_tail X))

/-- The result buffer after the two stores is the device's result block, whatever it and the landing buffer held before. -/
theorem out_val (c : Dev nD) (fo : Buf (Elt F) ((oM : Memref sig .tc .vmem S4x512x256 .f32).view.loc (c : Thread nD τ)))
    (fd : Buf (Elt F) ((hM : Memref sig .tc .vmem S4x3x256 .f32).view.loc (c : Thread nD τ)))
    (X : S4x512x256.Idx → F .f32) (K : S4x256.Idx → F .f32) (Xp : S4x512x256.Idx → F .f32) :
    oM.view.writes (Elt F) fo
          [⟨Rect.unit (s := S4x512x256) ![0, 0, 0] S4x3x256.size inb_S4x512x256_S4x3x256_0_0_0,
              k0_pay1
                (k0_pay5
                  (View.readAt (Elt F) kM.view (Rect.unit (s := S4x256) ![0, 0] S4x256.size inb_S4x256_S4x256_0_0).toLoadRect K))
                (k0_pay8
                  (k0_pay5
                    (View.readAt (Elt F) kM.view (Rect.unit (s := S4x256) ![0, 0] S4x256.size inb_S4x256_S4x256_0_0).toLoadRect
                      K))
                  (k0_pay6
                    (View.readAt (Elt F) kM.view (Rect.unit (s := S4x256) ![0, 0] S4x256.size inb_S4x256_S4x256_0_0).toLoadRect K)
                    (pM.view.readCov
                      [⟨Rect.unit (s := S4x515x256) ![0, 3, 0] S4x512x256.size inb_S4x515x256_S4x512x256_0_3_0,
                          k0_pay4
                            (View.readAt (Elt F) xM.view
                              (Rect.unit (s := S4x512x256) ![0, 0, 0] S4x512x256.size inb_S4x512x256_S4x512x256_0_0_0).toLoadRect X)⟩,
                        ⟨Rect.unit (s := S4x515x256) ![0, 0, 0] S4x3x256.size inb_S4x515x256_S4x3x256_0_0_0, k0_pay3 (F := F)⟩]
                      (Rect.unit (s := S4x515x256) ![0, 0, 0] S4x512x256.size inb_S4x515x256_S4x512x256_0_0_0).toLoadRect)
                    (pM.view.readCov
                      [⟨Rect.unit (s := S4x515x256) ![0, 3, 0] S4x512x256.size inb_S4x515x256_S4x512x256_0_3_0,
                          k0_pay4
                            (View.readAt (Elt F) xM.view
                              (Rect.unit (s := S4x512x256) ![0, 0, 0] S4x512x256.size inb_S4x512x256_S4x512x256_0_0_0).toLoadRect X)⟩,
                        ⟨Rect.unit (s := S4x515x256) ![0, 0, 0] S4x3x256.size inb_S4x515x256_S4x3x256_0_0_0, k0_pay3 (F := F)⟩]
                      (Rect.unit (s := S4x515x256) ![0, 1, 0] S4x512x256.size inb_S4x515x256_S4x512x256_0_1_0).toLoadRect))
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 2, 0] S4x512x256.size inb_S4x515x256_S4x512x256_0_2_0).toLoadRect)
                  (k0_pay7
                    (View.readAt (Elt F) kM.view (Rect.unit (s := S4x256) ![0, 0] S4x256.size inb_S4x256_S4x256_0_0).toLoadRect
                      K))
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 3, 0] S4x512x256.size inb_S4x515x256_S4x512x256_0_3_0).toLoadRect))
                (k0_pay10 (Scalar.remsi (Scalar.divsi (BitVec.ofNat 32 (Dev.tc c : Thread nD τ).1.val) 1#32) 4#32)
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay11 (Scalar.remsi (Scalar.divsi (BitVec.ofNat 32 (Dev.tc c : Thread nD τ).1.val) 1#32) 4#32)
                  (k0_pay5
                    (View.readAt (Elt F) kM.view (Rect.unit (s := S4x256) ![0, 0] S4x256.size inb_S4x256_S4x256_0_0).toLoadRect
                      K))
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay12 (Scalar.remsi (Scalar.divsi (BitVec.ofNat 32 (Dev.tc c : Thread nD τ).1.val) 1#32) 4#32)
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay13
                  (k0_pay5
                    (View.readAt (Elt F) kM.view (Rect.unit (s := S4x256) ![0, 0] S4x256.size inb_S4x256_S4x256_0_0).toLoadRect
                      K)))⟩,
            ⟨Rect.unit (s := S4x512x256) ![0, 0, 0] S4x512x256.size inb_S4x512x256_S4x512x256_0_0_0,
              k0_pay9
                (k0_pay5
                  (View.readAt (Elt F) kM.view (Rect.unit (s := S4x256) ![0, 0] S4x256.size inb_S4x256_S4x256_0_0).toLoadRect K))
                (k0_pay6
                  (View.readAt (Elt F) kM.view (Rect.unit (s := S4x256) ![0, 0] S4x256.size inb_S4x256_S4x256_0_0).toLoadRect K)
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 0, 0] S4x512x256.size inb_S4x515x256_S4x512x256_0_0_0).toLoadRect)
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 1, 0] S4x512x256.size inb_S4x515x256_S4x512x256_0_1_0).toLoadRect))
                (pM.view.readCov
                  [⟨Rect.unit (s := S4x515x256) ![0, 3, 0] S4x512x256.size inb_S4x515x256_S4x512x256_0_3_0,
                      k0_pay4
                        (View.readAt (Elt F) xM.view
                          (Rect.unit (s := S4x512x256) ![0, 0, 0] S4x512x256.size inb_S4x512x256_S4x512x256_0_0_0).toLoadRect X)⟩,
                    ⟨Rect.unit (s := S4x515x256) ![0, 0, 0] S4x3x256.size inb_S4x515x256_S4x3x256_0_0_0, k0_pay3 (F := F)⟩]
                  (Rect.unit (s := S4x515x256) ![0, 2, 0] S4x512x256.size inb_S4x515x256_S4x512x256_0_2_0).toLoadRect)
                (k0_pay7
                  (View.readAt (Elt F) kM.view (Rect.unit (s := S4x256) ![0, 0] S4x256.size inb_S4x256_S4x256_0_0).toLoadRect K))
                (pM.view.readCov
                  [⟨Rect.unit (s := S4x515x256) ![0, 3, 0] S4x512x256.size inb_S4x515x256_S4x512x256_0_3_0,
                      k0_pay4
                        (View.readAt (Elt F) xM.view
                          (Rect.unit (s := S4x512x256) ![0, 0, 0] S4x512x256.size inb_S4x512x256_S4x512x256_0_0_0).toLoadRect X)⟩,
                    ⟨Rect.unit (s := S4x515x256) ![0, 0, 0] S4x3x256.size inb_S4x515x256_S4x3x256_0_0_0, k0_pay3 (F := F)⟩]
                  (Rect.unit (s := S4x515x256) ![0, 3, 0] S4x512x256.size inb_S4x515x256_S4x512x256_0_3_0).toLoadRect)⟩]
      = (outOf c X K Xp : S4x512x256.Idx → F .f32) := by
  rw [read_k, read_x, pay4_eq, read_pad0, read_pad1, read_pad2, read_pad3, pos_eq c, landed_eq c fd (tailOf Xp), read_h]
  exact out_writes c fo (headOf (posWord c) X K (tailOf Xp)) (fullOf X K)

end Cert.KernelIdeal.Halo

end
-- ==== Proof.Body.lean ====
/-
  One device's body, stepped once at a symbolic device c, from what the launch hands it to what the pipeline takes back.

  In program order: the signal to the device before (paying that cell's one duty with c's own landing buffer); the
  block's last three rows staged into the send buffer; the wait on c's own barrier (the landing buffer of the device
  after arrives with it); the copy of the send buffer into that landing buffer (c then owes nothing); the padded block
  built and read at the four row offsets, the four-tap sum times its logistic stored to all 512 rows; the waits on the
  send cell (the send buffer back) and on the receive cell (c's landing buffer back, holding the previous block's last
  three rows); the first three rows redone and stored. The two own cells are then closed at zero.
-/
import proofs.«900354_g7700000000000355_dist_gconv1d_seqshard_i_b4_s512_c256_v7x_i4_f32_1_alg».proof.Proof.Mem
import proofs.«900354_g7700000000000355_dist_gconv1d_seqshard_i_b4_s512_c256_v7x_i4_f32_1_alg».proof.Proof.Gen.KernelIdeal.Points

noncomputable section

namespace Cert.KernelIdeal.Halo

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A whole buffer held through its memref's view. -/
local notation "held(" M ", " c ", " f ")" => (View.loc (Dev.tc c : Thread nD τ) (Memref.view M) ↦[View.set (Memref.view M)]{fullShare} f)

/-! ## What a device starts from -/

/-- The cells' invariants device c's body opens: its own three, prv c's barrier cell (its signal), nxt c's receive cell (its copy). -/
def invs (K : Dev nD × Fin 3 → ℕ) (c : Dev nD) : sProp 𝕄 :=
  iprop(cellInv ER (haloRd m) (K (c, 0)) (barCell c) ∗ cellInv ER (haloRd m) (K (c, 1)) (sendCell c) ∗ cellInv ER (haloRd m) (K (c, 2)) (recvCell c)
    ∗ cellInv ER (haloRd m) (K (prv c, 0)) (barCell (prv c)) ∗ cellInv ER (haloRd m) (K (nxt c, 2)) (recvCell (nxt c)))

instance invs_persistent (K : Dev nD × Fin 3 → ℕ) (c : Dev nD) : BI.Persistent (invs m K c) := by unfold invs; infer_instance

/-- Its positions at round 0 of its three cells, the rounds it knows reached, the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 false ∗ dutyTok ER (recvCell (nxt c)) 0 false ∗ dutyTok ER (sendCell c) 0 false)

def start (c : Dev nD) : sProp 𝕄 :=
  iprop((∃ K, ghost m K c) ∗ cred (tallyAt (barCell c) () 1) ∗ cred (tallyAt (recvCell c) () N) ∗ levAts L lv)

def padPts (c : Dev nD) (f : Buf (Elt F) ((pM : Memref sig .tc .vmem S4x515x256 .f32).view.loc (c : Thread nD τ))) : sProp 𝕄 := held(pM, c, f)

omit [FloatOps F] in
theorem padPts_eq (c : Dev nD) (f : Buf (Elt F) ((c : Thread nD τ).loc cc0_scratch2)) :
    padPts c f = (((c : Thread nD τ).loc cc0_scratch2) ↦{fullShare} f : sProp 𝕄) := by unfold padPts; rw [View.set_whole]

def Φ₀ (c : Dev nD) : sProp 𝕄 :=
  iprop(start m c ∗ (∃ f, sendPts c f) ∗ (∃ f, haloPts c f) ∗ (∃ f, padPts c f))
def Φ₁ (c : Dev nD) : sProp 𝕄 :=
  iprop((∃ f, sendPts c f) ∗ (∃ f, haloPts c f) ∗ (∃ f, padPts c f) ∗ semVal (sendCell c) 0 ∗ semVal (recvCell c) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- The window is the whole array: the staged block is the array. -/
theorem xstg_eq (c : Dev nD) : xstg m c = xOf m c := Memref.read_access_unit_zero (Elt F) main_arg0 (funext fun a => by fin_cases a <;> rfl) _ _
theorem kstg_eq (c : Dev nD) : kstg m c = kOf m c := Memref.read_access_unit_zero (Elt F) main_arg1 (funext fun a => by fin_cases a <;> rfl) _ _

/-- The result block of device c. -/
def outAt (c : Dev nD) : (cc0_stg2_0 : Ref sig .tc).ty.Contents (Elt F) := outOf c (xOf m c) (kOf m c) (xOf m (prv c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m c ∗ (dats m 0 c).owesAt () t₀.castSucc
    ∗ (∃ d, owns (c : Thread nD τ) xM fullShare ((dats m 0 c).before (0 : Fin 3) t₀ d))
    ∗ (∃ d, owns (c : Thread nD τ) kM fullShare ((dats m 0 c).before (1 : Fin 3) t₀ d))
    ∗ (∃ d, owns (c : Thread nD τ) oM fullShare ((dats m 0 c).before (2 : Fin 3) t₀ d)))

def bodyPost (c : Dev nD) : sProp 𝕄 :=
  iprop(Φ₁ c ∗ (dats m 0 c).owesAt () t₀.succ ∗ owns (c : Thread nD τ) xM fullShare (xstg m c) ∗ owns (c : Thread nD τ) kM fullShare (kstg m c)
    ∗ owns (c : Thread nD τ) oM fullShare (outAt m c))

attribute [local sl_rounds] duties_bar duties_send duties_recv amount_bar amount_send amount_recv expect_bar expect_send expect_recv
  payload_bar payload_send payload_recv barPay recvPay sendPay haloPts sendPts landedOn prv_nxt
attribute [local sl_rounds high] payload_bar_prv

set_option maxHeartbeats 1600000 in
/-- The body on device c, from what the pipeline hands it before the one grid point to what it takes back after
    (carried as a subtype so that the values the run names along the way can be cited). -/
def bodyRun (c : Dev nD) : { _u : Unit //
    bodyPre m c ⊢ wp frame (wpE (defs₀ (F := F)) 𝒱₀ c none) Set.univ
      (cc0_body (F := F) xM (Memref.isWhole_whole _) kM (Memref.isWhole_whole _) oM (Memref.isWhole_whole _)
        sM (Memref.isWhole_whole _) hM (Memref.isWhole_whole _) pM (Memref.isWhole_whole _) cc0_scratch3 cc0_scratch4)
      (fun _ => bodyPost m c) } := by
  refine ⟨(), ?_⟩
  have hd1 := dev1_eq c
  have hd2 := dev2_eq c
  have hmw := mayWait_bar (F := F) c
  unfold bodyPre Φ₀ start ghost invs sendPts haloPts padPts owns
  iintro ⟨⟨⟨⟨%K, ⟨#HIbar, #HIsnd, #HIrcv, #HIbarP, #HIrcvN⟩, HatB, HatS, HatV, #HrBP, #HrVN, #HrS, #HrV, HtBP, HtVN, HtS⟩, HcB, HcV, #Hlev⟩, ⟨%fs, Hs⟩, ⟨%fh, Hh⟩, ⟨%fp, Hp⟩⟩,
    Ho, ⟨%d0, %g0, %hg0, Hx⟩, ⟨%d1, %g1, %hg1, Hk⟩, ⟨%d2, %fo, %hg2, Hout⟩⟩
  have hx : g0 = xOf m c := (show g0 = _ from hg0).trans (by unfold Dat.before; rw [if_pos (fetch0_0 t₀)]; exact xstg_eq m c)
  have hk : g1 = kOf m c := (show g1 = _ from hg1).trans (by unfold Dat.before; rw [if_pos (fetch0_1 t₀)]; exact kstg_eq m c)
  subst hx hk
  unfold Dat.owesAt Pipeline.owesWithin
  icases Ho with ⟨%W, %hW, HO⟩
  rw [show (dats m 0 c).owed t₀.castSucc = O₀ c from rfl]
  unfold O₀
  sl_unfold [cc0_body]
  sl_exec
  have hs : sM.view.writes (Elt F) fs [⟨Rect.unit (s := S4x3x256) ![0, 0, 0] S4x3x256.size inb_S4x3x256_S4x3x256_0_0_0, bodyRun.sl.v32 m c⟩]
      = (tailOf (xOf m c) : S4x3x256.Idx → F .f32) := by
    sl_unfold_run_names
    exact send_val c fs (xOf m c)
  rw [hs]
  sl_exec
  have hout : oM.view.writes (Elt F) fo
      [⟨Rect.unit (s := S4x512x256) ![0, 0, 0] S4x3x256.size inb_S4x512x256_S4x3x256_0_0_0,
          k0_pay1 (bodyRun.sl.r m c) (bodyRun.sl.r_3 m c) (bodyRun.sl.r_4 m c HatV_pay1_v)
            (bodyRun.sl.r_5 m c HatV_pay1_v) (bodyRun.sl.r_6 m c HatV_pay1_v) (bodyRun.sl.r_7 m c)⟩,
        ⟨Rect.unit (s := S4x512x256) ![0, 0, 0] S4x512x256.size inb_S4x512x256_S4x512x256_0_0_0,
          k0_pay9 (bodyRun.sl.r m c) (bodyRun.sl.r_1 m c) (bodyRun.sl.v59 m c) (bodyRun.sl.r_2 m c)
            (bodyRun.sl.v66 m c)⟩] = outAt m c := by
    sl_unfold_run_names
    exact out_val c fo HatV_pay1_v (xOf m c) (kOf m c) (xOf m (prv c))
  rw [hout]
  -- the two own cells close: their counters at zero are the device's again
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  sl_step
  unfold bodyPost Φ₁ Dat.owesAt Pipeline.owesWithin sendPts haloPts padPts owns
  rw [show (dats m 0 c).owed t₀.succ = 0 from rfl]
  isplitl [HatS_pay1 HatV_pay1 Hp HzS HzV]
  · isplitl [HatS_pay1]; · iexists _; iexact HatS_pay1
    isplitl [HatV_pay1]; · iexists _; iexact HatV_pay1
    isplitl [Hp]; · iexists _; iexact Hp
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists (xOf m c); isplitr; · (ipureintro; exact (xstg_eq m c).symm)
    iexact Hx
  isplitl [Hk]
  · iexists (kOf m c); isplitr; · (ipureintro; exact (kstg_eq m c).symm)
    iexact Hk
  iexists (outAt m c); isplitr; · (ipureintro; rfl)
  iexact Hout

/-- The library's body obligation on device c. -/
theorem body_obligation (c : Dev nD) : BodyObligation (dats (F := F) m 0 c) (defs₀ (F := F)) 𝒱₀ () Set.univ := fun t => by
  rw [fin_N t]
  rw [bigSep_W0, bigSep_W0]
  exact (bodyRun m c).2

end Cert.KernelIdeal.Halo

end
-- ==== Proof.Launch.lean ====
/-
  From "each device's body is proved" to the run of the whole mesh.

  At launch every cell of the ring is allocated for all four devices under one update, because a cell's invariant is
  shared: the barrier cell of c is opened by c (its wait) and by nxt c (its signal), the receive cell of c by c and by
  prv c (its copy). The duty tokens are dealt to the devices that PAY them: the token of c's barrier duty goes to nxt c,
  the token of c's receive duty to prv c, the token of c's send duty stays with c. The launch credit each device holds is
  what the others owe its cells: one unit on its barrier cell, the copy's credit on its receive cell.
-/
import proofs.«900354_g7700000000000355_dist_gconv1d_seqshard_i_b4_s512_c256_v7x_i4_f32_1_alg».proof.Proof.Body

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- Each cell's one duty token as minted: round 0, duty false. -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop(dutyTok ER (barCell c) 0 false ∗ dutyTok ER (sendCell c) 0 false ∗ dutyTok ER (recvCell c) 0 false)

/-- What the launch element deals device c. -/
def G (c : Dev nD) : sProp 𝕄 :=
  iprop((bigSep Finset.univ fun k : Fin 3 => roundState ER (haloRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (haloRd m) ringCells ringToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (haloRd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (prv c)) 0 false ∗ dutyTok ER (recvCell (nxt c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

omit [FloatOps F] in
/-- The tokens dealt around the ring: a barrier's token one device up (to nxt), a receive token one device down (to prv). -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (haloRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if c is the device before d. -/
theorem owed_bar (d c : Dev nD) : O₀ d (barCell c) () = if d = nxt c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

omit [FloatOps F] in
theorem owed_recv (d c : Dev nD) : O₀ d (recvCell c) () = if d = prv c then N else 0 := by
  unfold O₀
  rw [Pi.add_apply, Finsupp.add_apply, tallyAt_apply,
    tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (prv c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, H0⟩, ⟨%f1, H1⟩, ⟨%f2, H2⟩⟩
  isplitl [Hs]; · iexact Hs
  isplitl [H0]; · iexists f0; rw [sendPts_eq]; iexact H0
  isplitl [H1]; · iexists f1; rw [haloPts_eq]; iexact H1
  iexists f2; rw [padPts_eq]; iexact H2

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f0, H0⟩, ⟨%f1, H1⟩, ⟨%f2, H2⟩, HzS, HzV⟩
  isplitr; · iempintro
  isplitl [HzS HzV]
  · isplitl [HzS] <;> iassumption
  isplitl [H0]; · iexists f0; rw [← sendPts_eq]; iexact H0
  isplitl [H1]; · iexists f1; rw [← haloPts_eq]; iexact H1
  iexists f2; rw [← padPts_eq]; iexact H2

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the mesh of four devices, for any float values, from any memory with every semaphore at zero: every weakly fair
    execution of the four bodies terminates without a fault, and each window's array ends at the proof data's contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.Halo

end
-- ==== Proof.Final.lean ====
/-
  The run read at the arrays: after every execution each device's result array holds its result block and its two
  argument arrays hold what they held.
-/
import proofs.«900354_g7700000000000355_dist_gconv1d_seqshard_i_b4_s512_c256_v7x_i4_f32_1_alg».proof.Proof.Launch

noncomputable section

namespace Cert.KernelIdeal.Halo

open Cert.KernelIdeal Cert.KernelIdeal.Gen

open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- An input window's array is never written. -/
theorem finalA_x (c : Dev nD) : finalA m c (0 : Fin 3) = m ((c : Thread nD τ).loc main_arg0) :=
  (dats (F := F) m 0 c).arrAt_in (0 : Fin 3) rfl _
theorem finalA_k (c : Dev nD) : finalA m c (1 : Fin 3) = m ((c : Thread nD τ).loc main_arg1) :=
  (dats (F := F) m 0 c).arrAt_in (1 : Fin 3) rfl _

/-- The result array's one block, the whole array, read back is what the body left in the staging buffer. -/
theorem finalA_o_read (c : Dev nD) :
    (win0_2.blk (0 : Fin 1)).view.read (Elt F) (finalA m c (2 : Fin 3)) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

theorem finalA_o (c : Dev nD) : finalA m c (2 : Fin 3) = outAt m c := by
  have h := finalA_o_read m c
  rwa [Memref.read_access_unit_zero (Elt F) main_v1 (funext fun a => by fin_cases a <;> rfl) (fun a => by fin_cases a <;> decide)] at h

/-- Every weakly fair execution on the four devices terminates without a fault; each device's result array ends at its
    result block — a pure function of its own block, the taps and the block of the device before it — and its argument
    arrays end as they began. -/
theorem run_value : θ_run defs (onTc (τ := τ) (main (F := F))) ⟨m, fun _ => 0, ρ⟩ (fun r => ∀ c : Dev nD,
      r.2.mem ((c.tc : Thread nD τ).loc main_v1) = outOf c (xOf m c) (kOf m c) (xOf m (prv c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (finalA_o m c), (h c (0 : Fin 3)).trans (finalA_x m c), (h c (1 : Fin 3)).trans (finalA_k m c)⟩)
    (run_main m ρ)

end Cert.KernelIdeal.Halo

end
-- ==== Proof.KSpec.lean ====
/-
  What one device computes, as pure functions of three arrays: its own block `x` of the sequence (4 × 512 × 256), the
  four taps `k` (4 × 256) and the block `xp` of the device before it on the ring.

  The convolution is causal along the sequence axis: out[b, s, c] = Σ_t pad[b, s + t, c] · k[t, c], where `pad` is the
  block with three rows put in front of it. Inside one device those three rows are zero, so every row s ≥ 3 is already
  right, and the rows s < 3 miss exactly the terms that reach into the previous block: its last three rows, which the
  neighbour sends. The first device has no predecessor and takes zeros instead. Every entry is then multiplied by its
  logistic.
-/
import proofs.«900354_g7700000000000355_dist_gconv1d_seqshard_i_b4_s512_c256_v7x_i4_f32_1_alg».proof.Proof.Gen.Kernel.Skeleton
import Idealize.ShloMosaic.Lib.ValueIdx

noncomputable section

namespace Cert.Kernel.Halo

open Idealize.ShloMosaic Idealize.ShloMosaic.ValueIdx Cert.Kernel Cert.Kernel.Gen

variable {F : FTy → Type} [FloatOps F]

/-- The ring of four devices: the one after and the one before. -/
def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- A device's position on the mesh axis as the body computes it (the word the first-device test reads). -/
def posWord (c : Dev nD) : BitVec 32 := Scalar.remsi (Scalar.divsi (Dev.word c) 1#32) 4#32

/-- The float zero both paddings are made of. -/
def zeroF : F .f32 := Scalar.ofBits .f32 0x00000000#32

/-- The last three rows of a block: rows 509, 510, 511. -/
def tailOf (x : S4x512x256.Idx → F .f32) : S4x3x256.Idx → F .f32 :=
  fun j => x (ix3 (j 0) ⟨509 + (j 1).val, by have h3 : (j 1).val < 3 := (j 1).isLt; omega⟩ (j 2))

/-- The block with three zero rows in front: 515 rows. -/
def padOf (x : S4x512x256.Idx → F .f32) : S4x515x256.Idx → F .f32 :=
  fun i => if h : (i 1).val < 3 then zeroF
    else x (ix3 (i 0) ⟨(i 1).val - 3, by have h515 : (i 1).val < 515 := (i 1).isLt; omega⟩ (i 2))

/-- The padded block read from row `t` on: 512 rows, row `s` of it is row `s + t` of the padded block. -/
def winOf (t : Fin 4) (x : S4x512x256.Idx → F .f32) : S4x512x256.Idx → F .f32 :=
  fun j => padOf x (ix3 (j 0) ⟨(j 1).val + t.val, by have h512 : (j 1).val < 512 := (j 1).isLt; have := t.isLt; omega⟩ (j 2))

/-- The four-tap sum over the device's own padded block, every row (the rows below 3 still miss the neighbour's part). -/
def accOf (x : S4x512x256.Idx → F .f32) (k : S4x256.Idx → F .f32) : FVec F S4x512x256 .f32 :=
  k0_pay8 (k0_pay5 k) (k0_pay6 k (winOf 0 x) (winOf 1 x)) (winOf 2 x) (k0_pay7 k) (winOf 3 x)

/-- That sum times its logistic: what the device first writes to all 512 rows. -/
def fullOf (x : S4x512x256.Idx → F .f32) (k : S4x256.Idx → F .f32) : FVec F S4x512x256 .f32 :=
  k0_pay9 (k0_pay5 k) (k0_pay6 k (winOf 0 x) (winOf 1 x)) (winOf 2 x) (k0_pay7 k) (winOf 3 x)

/-- The first three rows redone with the received rows `h` (zeroed on the first device): what the device writes last. -/
def headOf (w : BitVec 32) (x : S4x512x256.Idx → F .f32) (k : S4x256.Idx → F .f32) (h : S4x3x256.Idx → F .f32) : FVec F S4x3x256 .f32 :=
  k0_pay1 (k0_pay5 k) (accOf x k) (k0_pay10 w h) (k0_pay11 w (k0_pay5 k) h) (k0_pay12 w h) (k0_pay13 (k0_pay5 k))

/-- Device `c`'s result block: rows 0–2 from `headOf` with the previous block's last rows, rows 3–511 from `fullOf`. -/
def outOf (c : Dev nD) (x : S4x512x256.Idx → F .f32) (k : S4x256.Idx → F .f32) (xp : S4x512x256.Idx → F .f32) : S4x512x256.Idx → F .f32 :=
  fun j => if h : (j 1).val < 3 then headOf (posWord c) x k (tailOf xp) (ix3 (j 0) ⟨(j 1).val, h⟩ (j 2)) else fullOf x k j

end Cert.Kernel.Halo

end
-- ==== Proof.KRing.lean ====
/-
  The protocol of the four devices, written down before the body is stepped.

  Three semaphores per device matter. The BARRIER semaphore of device c is signalled once, by the device after it
  (nxt c), as that device's first action: the signal says "my landing buffer exists and nobody else writes it", and with
  it nxt c hands over the landing buffer itself. Device c waits for that one unit and only then starts its copy of its
  last three rows into nxt c's landing buffer. The copy pays two cells: the SEND cell of c (the source has been read: c
  gets its send buffer back, contents unchanged) and the RECEIVE cell of nxt c (the destination is written: nxt c gets its
  landing buffer back, now holding c's last three rows). Every cell has one round with one duty.

  Deadlock freedom is by levels: a barrier cell sits at 1, a receive cell at 2, everything else at 0. A device waits on
  its barrier while it owes only a receive cell (above), and waits on its send and receive cells owing nothing.
-/
import proofs.«900354_g7700000000000355_dist_gconv1d_seqshard_i_b4_s512_c256_v7x_i4_f32_1_alg».proof.Proof.KSpec
import proofs.«900354_g7700000000000355_dist_gconv1d_seqshard_i_b4_s512_c256_v7x_i4_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging cells' copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

theorem nxt_ne_self (c : Dev nD) : nxt c ≠ c := by revert c; decide
def ring : Dev nD ≃ Dev nD := ⟨nxt, prv, prv_nxt, nxt_prv⟩

/-- The device the first signal names is the one before; the copy goes to the one after. -/
theorem dev1_eq (c : Dev nD) : (⟨k0_dev1 c, k0_dev1_lt c⟩ : Dev nD) = prv c :=
  Fin.ext ((by decide +kernel : ∀ c : Dev nD, k0_dev1 c = (c.val + 3) % 4) c)
theorem dev2_eq (c : Dev nD) : (⟨k0_dev2 c, k0_dev2_lt c⟩ : Dev nD) = nxt c :=
  Fin.ext ((by decide +kernel : ∀ c : Dev nD, k0_dev2 c = (c.val + 1) % 4) c)

/-! ## The buffers and the cells -/

abbrev xM : Memref sig .tc .vmem S4x512x256 .f32 := Memref.whole cc0_stg0_0
abbrev kM : Memref sig .tc .vmem S4x256 .f32 := Memref.whole cc0_stg1_0
abbrev oM : Memref sig .tc .vmem S4x512x256 .f32 := Memref.whole cc0_stg2_0
/-- The send buffer (the last three rows, staged), the landing buffer, the padded block. -/
abbrev sM : Memref sig .tc .vmem S4x3x256 .f32 := Memref.whole cc0_scratch0
abbrev hM : Memref sig .tc .vmem S4x3x256 .f32 := Memref.whole cc0_scratch1
abbrev pM : Memref sig .tc .vmem S4x515x256 .f32 := Memref.whole cc0_scratch2

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the ring's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x256 .f32).view.dmaCredit
theorem N_pos : 0 < N := View.dmaCredit_pos _ (by decide)

/-! ## Contents -/

/-- Device c's block of the sequence and its copy of the taps, as launched. -/
def xOf (c : Dev nD) : S4x512x256.Idx → F .f32 := m ((c : Thread nD τ).loc main_arg0)
def kOf (c : Dev nD) : S4x256.Idx → F .f32 := m ((c : Thread nD τ).loc main_arg1)

/-- What lands on device c, as the copy writes it over whatever the landing buffer held (`fd`): the send buffer of the
    device before it, which holds that device's last three rows. -/
def landedOn (c : Dev nD) (fd : Buf (Elt F) ((hM : Memref sig .tc .vmem S4x3x256 .f32).view.loc (c : Thread nD τ))) :
    Buf (Elt F) ((hM : Memref sig .tc .vmem S4x3x256 .f32).view.loc (c : Thread nD τ)) :=
  (hM : Memref sig .tc .vmem S4x3x256 .f32).view.write (Elt F) fd ((sM : Memref sig .tc .vmem S4x3x256 .f32).view.read (Elt F) (tailOf (xOf m (prv c)))) Finset.univ

omit [FloatOps F] in
theorem landed_eq (c : Dev nD) (fd : Buf (Elt F) ((hM : Memref sig .tc .vmem S4x3x256 .f32).view.loc (c : Thread nD τ))) (fs : (cc0_scratch0 : Ref sig .tc).ty.Contents (Elt F)) :
    (hM : Memref sig .tc .vmem S4x3x256 .f32).view.write (Elt F) fd ((sM : Memref sig .tc .vmem S4x3x256 .f32).view.read (Elt F) fs) Finset.univ = fs := by
  show (View.whole cc0_scratch1).write (Elt F) fd ((View.whole cc0_scratch0).read (Elt F) fs) Finset.univ = fs
  rw [View.read_whole]
  exact View.write_whole_univ _ _ _

omit [FloatOps F] in
/-- Whatever the landing buffer held, after the copy it holds the last three rows of the block before. -/
theorem landedOn_eq (c : Dev nD) (fd) : landedOn m c fd = (tailOf (xOf m (prv c)) : S4x3x256.Idx → F .f32) := by
  unfold landedOn; exact landed_eq c fd _

def haloPts (c : Dev nD) (f : Buf (Elt F) ((hM : Memref sig .tc .vmem S4x3x256 .f32).view.loc (c : Thread nD τ))) : sProp 𝕄 :=
  (hM : Memref sig .tc .vmem S4x3x256 .f32).view.loc (c : Thread nD τ) ↦[(hM : Memref sig .tc .vmem S4x3x256 .f32).view.set]{fullShare} f
def sendPts (c : Dev nD) (f : Buf (Elt F) ((sM : Memref sig .tc .vmem S4x3x256 .f32).view.loc (c : Thread nD τ))) : sProp 𝕄 :=
  (sM : Memref sig .tc .vmem S4x3x256 .f32).view.loc (c : Thread nD τ) ↦[(sM : Memref sig .tc .vmem S4x3x256 .f32).view.set]{fullShare} f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

omit [FloatOps F] in
theorem halo_set : (hM : Memref sig .tc .vmem S4x3x256 .f32).view.set = Finset.univ := View.set_whole _
omit [FloatOps F] in
theorem send_set : (sM : Memref sig .tc .vmem S4x3x256 .f32).view.set = Finset.univ := View.set_whole _
omit [FloatOps F] in
theorem haloPts_eq (c : Dev nD) (f : Buf (Elt F) ((c : Thread nD τ).loc cc0_scratch1)) :
    haloPts c f = (((c : Thread nD τ).loc cc0_scratch1) ↦{fullShare} f : sProp 𝕄) := by unfold haloPts; rw [halo_set]
omit [FloatOps F] in
theorem sendPts_eq (c : Dev nD) (f : Buf (Elt F) ((c : Thread nD τ).loc cc0_scratch0)) :
    sendPts c f = (((c : Thread nD τ).loc cc0_scratch0) ↦{fullShare} f : sProp 𝕄) := by unfold sendPts; rw [send_set]

/-! ## The schedule -/

/-- What nxt c's signal hands c: nxt c's landing buffer (any contents) and that nxt c stands at round 0 of its receive cell. -/
def barPay (c : Dev nD) : sProp 𝕄 := iprop((∃ f, haloPts (nxt c) f) ∗ reached ER (recvCell (nxt c)) 0)
def recvPay (c : Dev nD) : sProp 𝕄 := iprop(∃ fd, haloPts c (landedOn m c fd))
def sendPay (c : Dev nD) : sProp 𝕄 := iprop(∃ f, sendPts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty per cell: a barrier cell one unit, a send or receive cell the copy's credit. -/
def haloRd : Rounds.Schedule (GSem nD τ sig) Bool 𝕄 where
  duties g r := if r = 0 ∧ (IsBar g ∨ IsXfer g) then {false} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then barPay g.1.1 else if g.2 = .dma recvS.sem then recvPay m g.1.1
    else if g.2 = .dma sendS.sem then sendPay g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (haloRd (F := F) m).duties (barCell c) 0 = {false} := by dsimp only [haloRd]; exact if_pos ⟨rfl, .inl ⟨rfl, rfl⟩⟩
omit [FloatOps F] in
theorem duties_send : (haloRd (F := F) m).duties (sendCell c) 0 = {false} := by dsimp only [haloRd]; exact if_pos ⟨rfl, .inr ⟨rfl, .inl rfl⟩⟩
omit [FloatOps F] in
theorem duties_recv : (haloRd (F := F) m).duties (recvCell c) 0 = {false} := by dsimp only [haloRd]; exact if_pos ⟨rfl, .inr ⟨rfl, .inr rfl⟩⟩
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Bool) : (haloRd (F := F) m).amount (barCell c) 0 d = 1 := by dsimp only [haloRd]; exact if_pos rfl
omit [FloatOps F] in
theorem amount_send (d : Bool) : (haloRd (F := F) m).amount (sendCell c) 0 d = N := by dsimp only [haloRd]; exact if_neg send_ne_bar
omit [FloatOps F] in
theorem amount_recv (d : Bool) : (haloRd (F := F) m).amount (recvCell c) 0 d = N := by dsimp only [haloRd]; exact if_neg recv_ne_bar

omit [FloatOps F] in
theorem expect_bar : (haloRd (F := F) m).expect (barCell c) 0 = 1 := by
  unfold Schedule.expect Schedule.amountOf; rw [duties_bar, Finset.sum_singleton, amount_bar]
omit [FloatOps F] in
theorem expect_send : (haloRd (F := F) m).expect (sendCell c) 0 = N := by
  unfold Schedule.expect Schedule.amountOf; rw [duties_send, Finset.sum_singleton, amount_send]
omit [FloatOps F] in
theorem expect_recv : (haloRd (F := F) m).expect (recvCell c) 0 = N := by
  unfold Schedule.expect Schedule.amountOf; rw [duties_recv, Finset.sum_singleton, amount_recv]

omit [FloatOps F] in
theorem payload_bar (d : Bool) : (haloRd (F := F) m).payload (barCell c) 0 d = barPay c := by dsimp only [haloRd]; rw [if_pos rfl]
omit [FloatOps F] in
/-- The same entry for the cell of the device before c, spelt with c itself: the landing buffer handed over is c's own. -/
theorem payload_bar_prv (d : Bool) : (haloRd (F := F) m).payload (barCell (prv c)) 0 d = iprop((∃ f, haloPts c f) ∗ reached ER (recvCell c) 0) := by
  rw [payload_bar]; unfold barPay; rw [nxt_prv]
omit [FloatOps F] in
theorem payload_send (d : Bool) : (haloRd (F := F) m).payload (sendCell c) 0 d = sendPay c := by
  dsimp only [haloRd]; rw [if_neg send_ne_bar, if_neg send_ne_recv, if_pos rfl]
omit [FloatOps F] in
theorem payload_recv (d : Bool) : (haloRd (F := F) m).payload (recvCell c) 0 d = recvPay m c := by
  dsimp only [haloRd]; rw [if_neg recv_ne_bar, if_pos rfl]

omit [FloatOps F] in
theorem rest_bar : bigSep ((haloRd (F := F) m).duties (barCell c) 0 \ ∅) (fun d => (haloRd (F := F) m).payload (barCell c) 0 d) = barPay c := by
  rw [Finset.sdiff_empty, duties_bar, bigSep_singleton, payload_bar]
omit [FloatOps F] in
theorem rest_send : bigSep ((haloRd (F := F) m).duties (sendCell c) 0 \ ∅) (fun d => (haloRd (F := F) m).payload (sendCell c) 0 d) = sendPay c := by
  rw [Finset.sdiff_empty, duties_send, bigSep_singleton, payload_send]
omit [FloatOps F] in
theorem rest_recv : bigSep ((haloRd (F := F) m).duties (recvCell c) 0 \ ∅) (fun d => (haloRd (F := F) m).payload (recvCell c) 0 d) = recvPay m c := by
  rw [Finset.sdiff_empty, duties_recv, bigSep_singleton, payload_recv]

end Sched

/-! ## What each device owes at launch; the levels -/

/-- Device c owes nxt c's receive cell the copy's credit and prv c's barrier cell one unit (the first thing it pays). -/
def O₀ (c : Dev nD) : CellTallies nD τ sig Unit := tallyAt (recvCell (nxt c)) () N + tallyAt (barCell (prv c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (prv c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes nxt c's receive credit only: a receive cell, above its barrier cell. -/
theorem mayWait_bar (c : Dev nD) :
    (levAts L lv : sProp 𝕄) ⊢ MayWait (c : Thread nD τ) (.reg barS) () (tallyAt (recvCell (nxt c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

end Cert.Kernel.Halo

end
-- ==== Proof.KMemRead.lean ====
/-
  What the body's loads read: a load of a whole buffer reads its contents, the load of three rows from row 509 reads the block's last
  three rows; a change of shape to the same shape is the identity; the position word.
-/
import proofs.«900354_g7700000000000355_dist_gconv1d_seqshard_i_b4_s512_c256_v7x_i4_f32_1_alg».proof.Proof.KRing
import Idealize.ShloMosaic.Lib.Pipeline.Value

noncomputable section

namespace Cert.Kernel.Halo

open Cert.Kernel Cert.Kernel.Gen
open Idealize.ShloMosaic Idealize.ShloMosaic.ValueIdx
open Idealize.ShloMosaic.TcCoe

variable {F : FTy → Type} [FloatOps F]

omit [FloatOps F] in
theorem off3_zero : (![0, 0, 0] : Fin 3 → Nat) = fun _ => 0 := funext fun a => by fin_cases a <;> rfl
omit [FloatOps F] in
theorem off2_zero : (![0, 0] : Fin 2 → Nat) = fun _ => 0 := funext fun a => by fin_cases a <;> rfl

omit [FloatOps F] in
/-- A load of all 4 × 512 × 256 entries of the block's buffer reads its contents; -/
theorem read_x (X : S4x512x256.Idx → F .f32) :
    View.readAt (Elt F) (xM : Memref sig .tc .vmem S4x512x256 .f32).view
      (Rect.unit (s := S4x512x256) ![0, 0, 0] S4x512x256.size inb_S4x512x256_S4x512x256_0_0_0).toLoadRect X = X :=
  Memref.readAt_unit_zero (Elt F) cc0_stg0_0 off3_zero _ X

omit [FloatOps F] in
/-- likewise the taps' buffer -/
theorem read_k (K : S4x256.Idx → F .f32) :
    View.readAt (Elt F) (kM : Memref sig .tc .vmem S4x256 .f32).view
      (Rect.unit (s := S4x256) ![0, 0] S4x256.size inb_S4x256_S4x256_0_0).toLoadRect K = K :=
  Memref.readAt_unit_zero (Elt F) cc0_stg1_0 off2_zero _ K

omit [FloatOps F] in
/-- and the landing buffer. -/
theorem read_h (H : S4x3x256.Idx → F .f32) :
    View.readAt (Elt F) (hM : Memref sig .tc .vmem S4x3x256 .f32).view
      (Rect.unit (s := S4x3x256) ![0, 0, 0] S4x3x256.size inb_S4x3x256_S4x3x256_0_0_0).toLoadRect H = H :=
  Memref.readAt_unit_zero (Elt F) cc0_scratch1 off3_zero _ H

/-- A load of three rows from row 509 on reads the block's last three rows: the entry at (b, r, c) of the load is the entry at
    (b, 509 + r, c) of the block. -/
theorem read_tail (X : S4x512x256.Idx → F .f32) :
    View.readAt (Elt F) (xM : Memref sig .tc .vmem S4x512x256 .f32).view
      (Rect.unit (s := S4x512x256) ![0, 509, 0] S4x3x256.size inb_S4x512x256_S4x3x256_0_509_0).toLoadRect X = tailOf X := by
  funext j
  obtain ⟨a, b, c, rfl⟩ : ∃ (a : Fin 4) (b : Fin 3) (c : Fin 256), j = ix3 a b c := ⟨j 0, j 1, j 2, eq_ix3 j⟩
  rw [View.readAt_apply]
  show X _ = _
  unfold tailOf
  refine congrArg X (funext fun d => Fin.ext ?_)
  match d with
  | ⟨0, _⟩ => show 0 + 1 * a.val = a.val; omega
  | ⟨1, _⟩ => show 509 + 1 * b.val = 509 + b.val; omega
  | ⟨2, _⟩ => show 0 + 1 * c.val = c.val; omega

/-- A change of shape to the same shape changes nothing: the staged tail, -/
theorem pay2_eq (v : S4x3x256.Idx → F .f32) : k0_pay2 v = v :=
  (shapeCast_self _ _).trans (shapeCast_self _ _)
/-- and the block on its way into the padded buffer. -/
theorem pay4_eq (v : S4x512x256.Idx → F .f32) : k0_pay4 v = v :=
  (shapeCast_self _ _).trans (shapeCast_self _ _)

omit [FloatOps F] in
/-- The position word the body computes from the device's id is the one the specification names. -/
theorem pos_eq (c : Dev nD) :
    Scalar.remsi (Scalar.divsi (BitVec.ofNat 32 (Dev.tc c : Thread nD τ).1.val) 1#32) 4#32 = posWord c := rfl

end Cert.Kernel.Halo

end
-- ==== Proof.KMemPad.lean ====
/-
  The padded block. The body fills a 4 × 515 × 256 buffer by two stores, zeros into rows 0–2 and the block into rows 3–514; the two
  rectangles cover the buffer and each payload is the restriction of ONE function, `padOf x`, so the buffer holds `padOf x` and a load
  of 512 rows from row t on reads `winOf t x`.
-/
import proofs.«900354_g7700000000000355_dist_gconv1d_seqshard_i_b4_s512_c256_v7x_i4_f32_1_alg».proof.Proof.KRing
import Idealize.ShloMosaic.Lib.Pipeline.Value

noncomputable section

namespace Cert.Kernel.Halo

open Cert.Kernel Cert.Kernel.Gen
open Idealize.ShloMosaic Idealize.ShloMosaic.ValueIdx
open Idealize.ShloMosaic.TcCoe

variable {F : FTy → Type} [FloatOps F]

/-- Every entry of the padded block is under one of the two stores: the first three rows under the store of zeros, the rest under the store of the block. -/
theorem pad_cover (X : S4x512x256.Idx → F .f32) (y : S4x515x256.Idx) :
    ∃ p ∈ ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32)),
      y ∈ p.1.set := by
  obtain ⟨a, b, c, rfl⟩ : ∃ (a : Fin 4) (b : Fin 515) (c : Fin 256), y = ix3 a b c := ⟨y 0, y 1, y 2, eq_ix3 y⟩
  have ha := a.isLt; have hb := b.isLt; have hc := c.isLt
  by_cases h : b.val < 3
  · refine ⟨⟨Rect.unit (s := S4x515x256) ![0, 0, 0] S4x3x256.size inb_S4x515x256_S4x3x256_0_0_0, k0_pay3 (F := F)⟩, List.mem_cons_of_mem _ List.mem_cons_self, (Rect.mem_set_unit (inb := inb_S4x515x256_S4x3x256_0_0_0)).mpr fun d => ?_⟩
    match d with
    | ⟨0, _⟩ => show 0 ≤ a.val ∧ a.val < 0 + 4; omega
    | ⟨1, _⟩ => show 0 ≤ b.val ∧ b.val < 0 + 3; omega
    | ⟨2, _⟩ => show 0 ≤ c.val ∧ c.val < 0 + 256; omega
  · refine ⟨⟨Rect.unit (s := S4x515x256) ![0, 3, 0] S4x512x256.size inb_S4x515x256_S4x512x256_0_3_0, X⟩, List.mem_cons_self, (Rect.mem_set_unit (inb := inb_S4x515x256_S4x512x256_0_3_0)).mpr fun d => ?_⟩
    match d with
    | ⟨0, _⟩ => show 0 ≤ a.val ∧ a.val < 0 + 4; omega
    | ⟨1, _⟩ => show 3 ≤ b.val ∧ b.val < 3 + 512; omega
    | ⟨2, _⟩ => show 0 ≤ c.val ∧ c.val < 0 + 256; omega

/-- Both stores write restrictions of the one padded block. -/
theorem pad_pieces (X : S4x512x256.Idx → F .f32) :
    ∀ p ∈ ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32)),
      ∀ x : p.1.shape.Idx, p.2 x = padOf X (p.1.emb x) := by
  refine List.forall_mem_cons.mpr ⟨fun x => ?_, List.forall_mem_cons.mpr ⟨fun x => ?_, fun _ h => absurd h List.not_mem_nil⟩⟩
  · obtain ⟨a, b, c, rfl⟩ : ∃ (a : Fin 4) (b : Fin 512) (c : Fin 256), x = ix3 a b c := ⟨x 0, x 1, x 2, eq_ix3 x⟩
    have hb := b.isLt
    have e : (Rect.unit (s := S4x515x256) ![0, 3, 0] S4x512x256.size inb_S4x515x256_S4x512x256_0_3_0).emb (ix3 a b c)
        = ix3 a (⟨b.val + 3, by omega⟩ : Fin 515) c := funext fun d => Fin.ext (by
      match d with
      | ⟨0, _⟩ => show 0 + 1 * a.val = a.val; omega
      | ⟨1, _⟩ => show 3 + 1 * b.val = b.val + 3; omega
      | ⟨2, _⟩ => show 0 + 1 * c.val = c.val; omega)
    show X (ix3 a b c) = padOf X _
    rw [e]
    unfold padOf
    rw [dif_neg (by show ¬ (b.val + 3 < 3); omega)]
    refine congrArg X (funext fun d => Fin.ext ?_)
    match d with
    | ⟨0, _⟩ => rfl
    | ⟨1, _⟩ => show b.val = b.val + 3 - 3; omega
    | ⟨2, _⟩ => rfl
  · obtain ⟨a, b, c, rfl⟩ : ∃ (a : Fin 4) (b : Fin 3) (c : Fin 256), x = ix3 a b c := ⟨x 0, x 1, x 2, eq_ix3 x⟩
    have hb := b.isLt
    have e : (Rect.unit (s := S4x515x256) ![0, 0, 0] S4x3x256.size inb_S4x515x256_S4x3x256_0_0_0).emb (ix3 a b c)
        = ix3 a (⟨b.val, by omega⟩ : Fin 515) c := funext fun d => Fin.ext (by
      match d with
      | ⟨0, _⟩ => show 0 + 1 * a.val = a.val; omega
      | ⟨1, _⟩ => show 0 + 1 * b.val = b.val; omega
      | ⟨2, _⟩ => show 0 + 1 * c.val = c.val; omega)
    show k0_pay3 (F := F) (ix3 a b c) = padOf X _
    rw [e]
    unfold padOf
    rw [dif_pos (by show b.val < 3; omega)]
    unfold k0_pay3
    rw [shapeCast_self]
    rfl

/-- The two stores leave the padded block. -/
theorem pad_canon (X : S4x512x256.Idx → F .f32) :
    View.canon ([⟨Rect.unit (s := S4x515x256) ![0, 3, 0] S4x512x256.size inb_S4x515x256_S4x512x256_0_3_0, X⟩,
        ⟨Rect.unit (s := S4x515x256) ![0, 0, 0] S4x3x256.size inb_S4x515x256_S4x3x256_0_0_0, k0_pay3 (F := F)⟩] : List (View.Piece (Elt F) S4x515x256 .f32))
      = padOf X :=
  funext fun y => View.canon_apply_of_pieces (padOf X) _ (pad_pieces X) y (pad_cover X y)

/-- A load of 512 rows of the padded block from row `t` on. -/
theorem read_pad_at (t : Nat) (ht : t < 4) (X : S4x512x256.Idx → F .f32)
    (inb : ∀ a, (![0, t, 0] : Fin 3 → Nat) a + S4x512x256.size a ≤ S4x515x256.size a) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, t, 0] S4x512x256.size inb).toLoadRect
      = (winOf ⟨t, ht⟩ X : S4x512x256.Idx → F .f32) := by
  rw [View.readCov_eq_canon', pad_canon]
  funext j
  obtain ⟨a, b, c, rfl⟩ : ∃ (a : Fin 4) (b : Fin 512) (c : Fin 256), j = ix3 a b c := ⟨j 0, j 1, j 2, eq_ix3 j⟩
  refine congrArg (padOf X) (funext fun d => Fin.ext ?_)
  match d with
  | ⟨0, _⟩ => show 0 + 1 * a.val = a.val; omega
  | ⟨1, _⟩ => show t + 1 * b.val = b.val + t; omega
  | ⟨2, _⟩ => show 0 + 1 * c.val = c.val; omega

theorem read_pad0 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 0, 0] S4x512x256.size inb_S4x515x256_S4x512x256_0_0_0).toLoadRect
      = (winOf 0 X : S4x512x256.Idx → F .f32) := read_pad_at 0 (by omega) X _
theorem read_pad1 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 1, 0] S4x512x256.size inb_S4x515x256_S4x512x256_0_1_0).toLoadRect
      = (winOf 1 X : S4x512x256.Idx → F .f32) := read_pad_at 1 (by omega) X _
theorem read_pad2 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 2, 0] S4x512x256.size inb_S4x515x256_S4x512x256_0_2_0).toLoadRect
      = (winOf 2 X : S4x512x256.Idx → F .f32) := read_pad_at 2 (by omega) X _
theorem read_pad3 (X : S4x512x256.Idx → F .f32) :
    (pM : Memref sig .tc .vmem S4x515x256 .f32).view.readCov
        ([⟨Rect.unit (s := S4x515x256) ![0, 3, 0] S4x512x256.size inb_S4x515x256_S4x512x256_0_3_0, X⟩,
          ⟨Rect.unit (s := S4x515x256) ![0, 0, 0] S4x3x256.size inb_S4x515x256_S4x3x256_0_0_0, k0_pay3 (F := F)⟩] : List (View.Piece (Elt F) S4x515x256 .f32))
        (Rect.unit (s := S4x515x256) ![0, 3, 0] S4x512x256.size inb_S4x515x256_S4x512x256_0_3_0).toLoadRect
      = (winOf 3 X : S4x512x256.Idx → F .f32) := read_pad_at 3 (by omega) X _

end Cert.Kernel.Halo

end
-- ==== Proof.KMemStore.lean ====
/-
  What the body's stores leave: one store of a whole buffer leaves its payload; a store of all 512 rows followed by a store of rows 0–2
  leaves the second payload in rows 0–2 and the first in rows 3–511. Newest store first: an entry under the newest rectangle reads its
  payload, any other entry reads what the earlier stores left.
-/
import proofs.«900354_g7700000000000355_dist_gconv1d_seqshard_i_b4_s512_c256_v7x_i4_f32_1_alg».proof.Proof.KRing
import Idealize.ShloMosaic.Lib.Pipeline.Value
import Idealize.ShloMosaic.Lib.WritesUnit

noncomputable section

namespace Cert.Kernel.Halo

open Cert.Kernel Cert.Kernel.Gen
open Idealize.ShloMosaic Idealize.ShloMosaic.ValueIdx
open Idealize.ShloMosaic.TcCoe

variable {F : FTy → Type} [FloatOps F]

omit [FloatOps F] in
/-- The contents of a whole buffer are what is read through it. -/
theorem eq_of_read_whole {κ : Kind} (b : Ref sig κ) (f g : b.ty.Contents (Elt F))
    (h : (Memref.whole b : Memref sig κ _ _ _).view.read (Elt F) f = g) : f = g := h

omit [FloatOps F] in
/-- Through any view of a 4 × 512 × 256 buffer: after a store of all 512 rows and then a store of the first three rows, an entry of the
    first three rows reads the second payload, any other entry the first. -/
theorem read_two_stores {κ : Kind} {sp : Space} (v : View sig κ sp S4x512x256 .f32) (f : v.ty.Contents (Elt F))
    (inb3 : ∀ a, (![0, 0, 0] : Fin 3 → Nat) a + S4x3x256.size a ≤ S4x512x256.size a)
    (inb512 : ∀ a, (![0, 0, 0] : Fin 3 → Nat) a + S4x512x256.size a ≤ S4x512x256.size a)
    (H : S4x3x256.Idx → F .f32) (A : S4x512x256.Idx → F .f32) (y : S4x512x256.Idx) :
    v.read (Elt F) (v.writes (Elt F) f
      ([⟨Rect.unit (s := S4x512x256) ![0, 0, 0] S4x3x256.size inb3, H⟩,
        ⟨Rect.unit (s := S4x512x256) ![0, 0, 0] S4x512x256.size inb512, A⟩] : List (View.Piece (Elt F) S4x512x256 .f32))) y
      = if h : (y 1).val < 3 then H (ix3 (y 0) ⟨(y 1).val, h⟩ (y 2)) else A y := by
  by_cases h : (y 1).val < 3
  · rw [dif_pos h]
    refine View.read_writes_cons_unit_of_mem (Val := Elt F) v f (off := ![0, 0, 0]) (off' := ![0, 0, 0]) (size := S4x3x256.size) inb3 H _ y
      (ix3 (y 0) ⟨(y 1).val, h⟩ (y 2)) rfl fun d => ?_
    match d with
    | ⟨0, _⟩ => show (y 0).val = 0 + (y 0).val; omega
    | ⟨1, _⟩ => show (y 1).val = 0 + (y 1).val; omega
    | ⟨2, _⟩ => show (y 2).val = 0 + (y 2).val; omega
  · rw [dif_neg h]
    refine (View.read_writes_cons_unit_of_not_mem (Val := Elt F) v f (off := ![0, 0, 0]) (off' := ![0, 0, 0]) (size := S4x3x256.size) inb3 H _ y rfl
      (1 : Fin 3) (Or.inr ?_)).trans ?_
    · show 0 + 3 ≤ (y 1).val; omega
    · refine View.read_writes_cons_unit_of_mem (Val := Elt F) v f (off := ![0, 0, 0]) (off' := ![0, 0, 0]) (size := S4x512x256.size) inb512 A [] y y rfl fun d => ?_
      match d with
      | ⟨0, _⟩ => show (y 0).val = 0 + (y 0).val; omega
      | ⟨1, _⟩ => show (y 1).val = 0 + (y 1).val; omega
      | ⟨2, _⟩ => show (y 2).val = 0 + (y 2).val; omega

omit [FloatOps F] in
/-- Through any view of a 4 × 3 × 256 buffer: after one store of all of it every entry reads the payload. -/
theorem read_one_store {κ : Kind} {sp : Space} (v : View sig κ sp S4x3x256 .f32) (f : v.ty.Contents (Elt F))
    (inb : ∀ a, (![0, 0, 0] : Fin 3 → Nat) a + S4x3x256.size a ≤ S4x3x256.size a) (w : S4x3x256.Idx → F .f32) (y : S4x3x256.Idx) :
    v.read (Elt F) (v.writes (Elt F) f
      ([⟨Rect.unit (s := S4x3x256) ![0, 0, 0] S4x3x256.size inb, w⟩] : List (View.Piece (Elt F) S4x3x256 .f32))) y = w y := by
  refine View.read_writes_cons_unit_of_mem (Val := Elt F) v f (off := ![0, 0, 0]) (off' := ![0, 0, 0]) (size := S4x3x256.size) inb w [] y y rfl fun d => ?_
  match d with
  | ⟨0, _⟩ => show (y 0).val = 0 + (y 0).val; omega
  | ⟨1, _⟩ => show (y 1).val = 0 + (y 1).val; omega
  | ⟨2, _⟩ => show (y 2).val = 0 + (y 2).val; omega

omit [FloatOps F] in
/-- One store of all of the send buffer leaves its payload, whatever the buffer held. -/
theorem send_writes (c : Dev nD) (fs : Buf (Elt F) ((sM : Memref sig .tc .vmem S4x3x256 .f32).view.loc (c : Thread nD τ))) (w : S4x3x256.Idx → F .f32) :
    (sM : Memref sig .tc .vmem S4x3x256 .f32).view.writes (Elt F) fs
      [⟨Rect.unit (s := S4x3x256) ![0, 0, 0] S4x3x256.size inb_S4x3x256_S4x3x256_0_0_0, w⟩] = w := by
  refine eq_of_read_whole cc0_scratch0 _ _ ?_
  funext y
  exact read_one_store (sM : Memref sig .tc .vmem S4x3x256 .f32).view fs _ w y

omit [FloatOps F] in
/-- The result buffer after the store of all 512 rows and then of the first three: rows 0–2 hold the second payload, rows 3–511 the first,
    whatever the buffer held. -/
theorem out_writes (c : Dev nD) (fo : Buf (Elt F) ((oM : Memref sig .tc .vmem S4x512x256 .f32).view.loc (c : Thread nD τ)))
    (H : S4x3x256.Idx → F .f32) (A : S4x512x256.Idx → F .f32) :
    (oM : Memref sig .tc .vmem S4x512x256 .f32).view.writes (Elt F) fo
      [⟨Rect.unit (s := S4x512x256) ![0, 0, 0] S4x3x256.size inb_S4x512x256_S4x3x256_0_0_0, H⟩,
        ⟨Rect.unit (s := S4x512x256) ![0, 0, 0] S4x512x256.size inb_S4x512x256_S4x512x256_0_0_0, A⟩]
      = fun j : S4x512x256.Idx => if h : (j 1).val < 3 then H (ix3 (j 0) ⟨(j 1).val, h⟩ (j 2)) else A j := by
  refine eq_of_read_whole cc0_stg2_0 _ _ ?_
  funext y
  exact read_two_stores (oM : Memref sig .tc .vmem S4x512x256 .f32).view fo _ _ H A y

end Cert.Kernel.Halo

end
-- ==== Proof.KMem.lean ====
/-
  What the buffers hold, read back as the plain functions of Spec: the send buffer after the store of the block's last
  three rows; the padded block read at the four row offsets; the result buffer after the whole-block store and the store
  of its first three rows.
-/
import proofs.«900354_g7700000000000355_dist_gconv1d_seqshard_i_b4_s512_c256_v7x_i4_f32_1_alg».proof.Proof.KRing
import proofs.«900354_g7700000000000355_dist_gconv1d_seqshard_i_b4_s512_c256_v7x_i4_f32_1_alg».proof.Proof.KMemRead
import proofs.«900354_g7700000000000355_dist_gconv1d_seqshard_i_b4_s512_c256_v7x_i4_f32_1_alg».proof.Proof.KMemPad
import proofs.«900354_g7700000000000355_dist_gconv1d_seqshard_i_b4_s512_c256_v7x_i4_f32_1_alg».proof.Proof.KMemStore
import Idealize.ShloMosaic.Lib.Pipeline.Value

noncomputable section

namespace Cert.Kernel.Halo

open Cert.Kernel Cert.Kernel.Gen
open Idealize.ShloMosaic Idealize.ShloMosaic.ValueIdx
open Idealize.ShloMosaic.TcCoe

variable {F : FTy → Type} [FloatOps F]

/-- The send buffer after the body's store holds the block's last three rows, whatever it held before. -/
theorem send_val (c : Dev nD) (fs : Buf (Elt F) ((sM : Memref sig .tc .vmem S4x3x256 .f32).view.loc (c : Thread nD τ))) (X : S4x512x256.Idx → F .f32) :
    (sM : Memref sig .tc .vmem S4x3x256 .f32).view.writes (Elt F) fs
      [⟨Rect.unit (s := S4x3x256) ![0, 0, 0] S4x3x256.size inb_S4x3x256_S4x3x256_0_0_0,
        shapeCast S4x3x256 (shapeCast S4x3x256 (View.readAt (Elt F) (xM : Memref sig .tc .vmem S4x512x256 .f32).view
          (Rect.unit (s := S4x512x256) ![0, 509, 0] S4x3x256.size inb_S4x512x256_S4x3x256_0_509_0).toLoadRect X) shapeCasts_S4x3x256_S4x3x256) shapeCasts_S4x3x256_S4x3x256⟩]
      = (tailOf X : S4x3x256.Idx → F .f32) := by
  refine (congrArg (fun w => (sM : Memref sig .tc .vmem S4x3x256 .f32).view.writes (Elt F) fs
    [⟨Rect.unit (s := S4x3x256) ![0, 0, 0] S4x3x256.size inb_S4x3x256_S4x3x256_0_0_0, w⟩]) ?_).trans (send_writes c fs (tailOf X))
  exact (shapeCast_self _ _).trans ((shapeCast_self _ _).trans (read_tail X))

/-- The result buffer after the two stores is the device's result block, whatever it and the landing buffer held before. -/
theorem out_val (c : Dev nD) (fo : Buf (Elt F) ((oM : Memref sig .tc .vmem S4x512x256 .f32).view.loc (c : Thread nD τ)))
    (fd : Buf (Elt F) ((hM : Memref sig .tc .vmem S4x3x256 .f32).view.loc (c : Thread nD τ)))
    (X : S4x512x256.Idx → F .f32) (K : S4x256.Idx → F .f32) (Xp : S4x512x256.Idx → F .f32) :
    oM.view.writes (Elt F) fo
          [⟨Rect.unit (s := S4x512x256) ![0, 0, 0] S4x3x256.size inb_S4x512x256_S4x3x256_0_0_0,
              k0_pay1
                (k0_pay5
                  (View.readAt (Elt F) kM.view (Rect.unit (s := S4x256) ![0, 0] S4x256.size inb_S4x256_S4x256_0_0).toLoadRect K))
                (k0_pay8
                  (k0_pay5
                    (View.readAt (Elt F) kM.view (Rect.unit (s := S4x256) ![0, 0] S4x256.size inb_S4x256_S4x256_0_0).toLoadRect
                      K))
                  (k0_pay6
                    (View.readAt (Elt F) kM.view (Rect.unit (s := S4x256) ![0, 0] S4x256.size inb_S4x256_S4x256_0_0).toLoadRect K)
                    (pM.view.readCov
                      [⟨Rect.unit (s := S4x515x256) ![0, 3, 0] S4x512x256.size inb_S4x515x256_S4x512x256_0_3_0,
                          k0_pay4
                            (View.readAt (Elt F) xM.view
                              (Rect.unit (s := S4x512x256) ![0, 0, 0] S4x512x256.size inb_S4x512x256_S4x512x256_0_0_0).toLoadRect X)⟩,
                        ⟨Rect.unit (s := S4x515x256) ![0, 0, 0] S4x3x256.size inb_S4x515x256_S4x3x256_0_0_0, k0_pay3 (F := F)⟩]
                      (Rect.unit (s := S4x515x256) ![0, 0, 0] S4x512x256.size inb_S4x515x256_S4x512x256_0_0_0).toLoadRect)
                    (pM.view.readCov
                      [⟨Rect.unit (s := S4x515x256) ![0, 3, 0] S4x512x256.size inb_S4x515x256_S4x512x256_0_3_0,
                          k0_pay4
                            (View.readAt (Elt F) xM.view
                              (Rect.unit (s := S4x512x256) ![0, 0, 0] S4x512x256.size inb_S4x512x256_S4x512x256_0_0_0).toLoadRect X)⟩,
                        ⟨Rect.unit (s := S4x515x256) ![0, 0, 0] S4x3x256.size inb_S4x515x256_S4x3x256_0_0_0, k0_pay3 (F := F)⟩]
                      (Rect.unit (s := S4x515x256) ![0, 1, 0] S4x512x256.size inb_S4x515x256_S4x512x256_0_1_0).toLoadRect))
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 2, 0] S4x512x256.size inb_S4x515x256_S4x512x256_0_2_0).toLoadRect)
                  (k0_pay7
                    (View.readAt (Elt F) kM.view (Rect.unit (s := S4x256) ![0, 0] S4x256.size inb_S4x256_S4x256_0_0).toLoadRect
                      K))
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 3, 0] S4x512x256.size inb_S4x515x256_S4x512x256_0_3_0).toLoadRect))
                (k0_pay10 (Scalar.remsi (Scalar.divsi (BitVec.ofNat 32 (Dev.tc c : Thread nD τ).1.val) 1#32) 4#32)
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay11 (Scalar.remsi (Scalar.divsi (BitVec.ofNat 32 (Dev.tc c : Thread nD τ).1.val) 1#32) 4#32)
                  (k0_pay5
                    (View.readAt (Elt F) kM.view (Rect.unit (s := S4x256) ![0, 0] S4x256.size inb_S4x256_S4x256_0_0).toLoadRect
                      K))
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay12 (Scalar.remsi (Scalar.divsi (BitVec.ofNat 32 (Dev.tc c : Thread nD τ).1.val) 1#32) 4#32)
                  (View.readAt (Elt F) hM.view (Rect.unit (s := S4x3x256) ![0, 0, 0] S4x3x256.size inb_S4x3x256_S4x3x256_0_0_0).toLoadRect
                    (View.write (Elt F) hM.view fd (View.read (Elt F) sM.view (tailOf Xp))
                      Finset.univ)))
                (k0_pay13
                  (k0_pay5
                    (View.readAt (Elt F) kM.view (Rect.unit (s := S4x256) ![0, 0] S4x256.size inb_S4x256_S4x256_0_0).toLoadRect
                      K)))⟩,
            ⟨Rect.unit (s := S4x512x256) ![0, 0, 0] S4x512x256.size inb_S4x512x256_S4x512x256_0_0_0,
              k0_pay9
                (k0_pay5
                  (View.readAt (Elt F) kM.view (Rect.unit (s := S4x256) ![0, 0] S4x256.size inb_S4x256_S4x256_0_0).toLoadRect K))
                (k0_pay6
                  (View.readAt (Elt F) kM.view (Rect.unit (s := S4x256) ![0, 0] S4x256.size inb_S4x256_S4x256_0_0).toLoadRect K)
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 0, 0] S4x512x256.size inb_S4x515x256_S4x512x256_0_0_0).toLoadRect)
                  (pM.view.readCov
                    [⟨Rect.unit (s := S4x515x256) ![0, 3, 0] S4x512x256.size inb_S4x515x256_S4x512x256_0_3_0,
                        k0_pay4
                          (View.readAt (Elt F) xM.view
                            (Rect.unit (s := S4x512x256) ![0, 0, 0] S4x512x256.size inb_S4x512x256_S4x512x256_0_0_0).toLoadRect X)⟩,
                      ⟨Rect.unit (s := S4x515x256) ![0, 0, 0] S4x3x256.size inb_S4x515x256_S4x3x256_0_0_0, k0_pay3 (F := F)⟩]
                    (Rect.unit (s := S4x515x256) ![0, 1, 0] S4x512x256.size inb_S4x515x256_S4x512x256_0_1_0).toLoadRect))
                (pM.view.readCov
                  [⟨Rect.unit (s := S4x515x256) ![0, 3, 0] S4x512x256.size inb_S4x515x256_S4x512x256_0_3_0,
                      k0_pay4
                        (View.readAt (Elt F) xM.view
                          (Rect.unit (s := S4x512x256) ![0, 0, 0] S4x512x256.size inb_S4x512x256_S4x512x256_0_0_0).toLoadRect X)⟩,
                    ⟨Rect.unit (s := S4x515x256) ![0, 0, 0] S4x3x256.size inb_S4x515x256_S4x3x256_0_0_0, k0_pay3 (F := F)⟩]
                  (Rect.unit (s := S4x515x256) ![0, 2, 0] S4x512x256.size inb_S4x515x256_S4x512x256_0_2_0).toLoadRect)
                (k0_pay7
                  (View.readAt (Elt F) kM.view (Rect.unit (s := S4x256) ![0, 0] S4x256.size inb_S4x256_S4x256_0_0).toLoadRect K))
                (pM.view.readCov
                  [⟨Rect.unit (s := S4x515x256) ![0, 3, 0] S4x512x256.size inb_S4x515x256_S4x512x256_0_3_0,
                      k0_pay4
                        (View.readAt (Elt F) xM.view
                          (Rect.unit (s := S4x512x256) ![0, 0, 0] S4x512x256.size inb_S4x512x256_S4x512x256_0_0_0).toLoadRect X)⟩,
                    ⟨Rect.unit (s := S4x515x256) ![0, 0, 0] S4x3x256.size inb_S4x515x256_S4x3x256_0_0_0, k0_pay3 (F := F)⟩]
                  (Rect.unit (s := S4x515x256) ![0, 3, 0] S4x512x256.size inb_S4x515x256_S4x512x256_0_3_0).toLoadRect)⟩]
      = (outOf c X K Xp : S4x512x256.Idx → F .f32) := by
  rw [read_k, read_x, pay4_eq, read_pad0, read_pad1, read_pad2, read_pad3, pos_eq c, landed_eq c fd (tailOf Xp), read_h]
  exact out_writes c fo (headOf (posWord c) X K (tailOf Xp)) (fullOf X K)

end Cert.Kernel.Halo

end
-- ==== Proof.KBody.lean ====
/-
  One device's body, stepped once at a symbolic device c, from what the launch hands it to what the pipeline takes back.

  In program order: the signal to the device before (paying that cell's one duty with c's own landing buffer); the
  block's last three rows staged into the send buffer; the wait on c's own barrier (the landing buffer of the device
  after arrives with it); the copy of the send buffer into that landing buffer (c then owes nothing); the padded block
  built and read at the four row offsets, the four-tap sum times its logistic stored to all 512 rows; the waits on the
  send cell (the send buffer back) and on the receive cell (c's landing buffer back, holding the previous block's last
  three rows); the first three rows redone and stored. The two own cells are then closed at zero.
-/
import proofs.«900354_g7700000000000355_dist_gconv1d_seqshard_i_b4_s512_c256_v7x_i4_f32_1_alg».proof.Proof.KMem
import proofs.«900354_g7700000000000355_dist_gconv1d_seqshard_i_b4_s512_c256_v7x_i4_f32_1_alg».proof.Proof.Gen.Kernel.Points

noncomputable section

namespace Cert.Kernel.Halo

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A whole buffer held through its memref's view. -/
local notation "held(" M ", " c ", " f ")" => (View.loc (Dev.tc c : Thread nD τ) (Memref.view M) ↦[View.set (Memref.view M)]{fullShare} f)

/-! ## What a device starts from -/

/-- The cells' invariants device c's body opens: its own three, prv c's barrier cell (its signal), nxt c's receive cell (its copy). -/
def invs (K : Dev nD × Fin 3 → ℕ) (c : Dev nD) : sProp 𝕄 :=
  iprop(cellInv ER (haloRd m) (K (c, 0)) (barCell c) ∗ cellInv ER (haloRd m) (K (c, 1)) (sendCell c) ∗ cellInv ER (haloRd m) (K (c, 2)) (recvCell c)
    ∗ cellInv ER (haloRd m) (K (prv c, 0)) (barCell (prv c)) ∗ cellInv ER (haloRd m) (K (nxt c, 2)) (recvCell (nxt c)))

instance invs_persistent (K : Dev nD × Fin 3 → ℕ) (c : Dev nD) : BI.Persistent (invs m K c) := by unfold invs; infer_instance

/-- Its positions at round 0 of its three cells, the rounds it knows reached, the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 false ∗ dutyTok ER (recvCell (nxt c)) 0 false ∗ dutyTok ER (sendCell c) 0 false)

def start (c : Dev nD) : sProp 𝕄 :=
  iprop((∃ K, ghost m K c) ∗ cred (tallyAt (barCell c) () 1) ∗ cred (tallyAt (recvCell c) () N) ∗ levAts L lv)

def padPts (c : Dev nD) (f : Buf (Elt F) ((pM : Memref sig .tc .vmem S4x515x256 .f32).view.loc (c : Thread nD τ))) : sProp 𝕄 := held(pM, c, f)

omit [FloatOps F] in
theorem padPts_eq (c : Dev nD) (f : Buf (Elt F) ((c : Thread nD τ).loc cc0_scratch2)) :
    padPts c f = (((c : Thread nD τ).loc cc0_scratch2) ↦{fullShare} f : sProp 𝕄) := by unfold padPts; rw [View.set_whole]

def Φ₀ (c : Dev nD) : sProp 𝕄 :=
  iprop(start m c ∗ (∃ f, sendPts c f) ∗ (∃ f, haloPts c f) ∗ (∃ f, padPts c f))
def Φ₁ (c : Dev nD) : sProp 𝕄 :=
  iprop((∃ f, sendPts c f) ∗ (∃ f, haloPts c f) ∗ (∃ f, padPts c f) ∗ semVal (sendCell c) 0 ∗ semVal (recvCell c) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- The window is the whole array: the staged block is the array. -/
theorem xstg_eq (c : Dev nD) : xstg m c = xOf m c := Memref.read_access_unit_zero (Elt F) main_arg0 (funext fun a => by fin_cases a <;> rfl) _ _
theorem kstg_eq (c : Dev nD) : kstg m c = kOf m c := Memref.read_access_unit_zero (Elt F) main_arg1 (funext fun a => by fin_cases a <;> rfl) _ _

/-- The result block of device c. -/
def outAt (c : Dev nD) : (cc0_stg2_0 : Ref sig .tc).ty.Contents (Elt F) := outOf c (xOf m c) (kOf m c) (xOf m (prv c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m c ∗ (dats m 0 c).owesAt () t₀.castSucc
    ∗ (∃ d, owns (c : Thread nD τ) xM fullShare ((dats m 0 c).before (0 : Fin 3) t₀ d))
    ∗ (∃ d, owns (c : Thread nD τ) kM fullShare ((dats m 0 c).before (1 : Fin 3) t₀ d))
    ∗ (∃ d, owns (c : Thread nD τ) oM fullShare ((dats m 0 c).before (2 : Fin 3) t₀ d)))

def bodyPost (c : Dev nD) : sProp 𝕄 :=
  iprop(Φ₁ c ∗ (dats m 0 c).owesAt () t₀.succ ∗ owns (c : Thread nD τ) xM fullShare (xstg m c) ∗ owns (c : Thread nD τ) kM fullShare (kstg m c)
    ∗ owns (c : Thread nD τ) oM fullShare (outAt m c))

attribute [local sl_rounds] duties_bar duties_send duties_recv amount_bar amount_send amount_recv expect_bar expect_send expect_recv
  payload_bar payload_send payload_recv barPay recvPay sendPay haloPts sendPts landedOn prv_nxt
attribute [local sl_rounds high] payload_bar_prv

set_option maxHeartbeats 1600000 in
/-- The body on device c, from what the pipeline hands it before the one grid point to what it takes back after
    (carried as a subtype so that the values the run names along the way can be cited). -/
def bodyRun (c : Dev nD) : { _u : Unit //
    bodyPre m c ⊢ wp frame (wpE (defs₀ (F := F)) 𝒱₀ c none) Set.univ
      (cc0_body (F := F) xM (Memref.isWhole_whole _) kM (Memref.isWhole_whole _) oM (Memref.isWhole_whole _)
        sM (Memref.isWhole_whole _) hM (Memref.isWhole_whole _) pM (Memref.isWhole_whole _) cc0_scratch3 cc0_scratch4)
      (fun _ => bodyPost m c) } := by
  refine ⟨(), ?_⟩
  have hd1 := dev1_eq c
  have hd2 := dev2_eq c
  have hmw := mayWait_bar (F := F) c
  unfold bodyPre Φ₀ start ghost invs sendPts haloPts padPts owns
  iintro ⟨⟨⟨⟨%K, ⟨#HIbar, #HIsnd, #HIrcv, #HIbarP, #HIrcvN⟩, HatB, HatS, HatV, #HrBP, #HrVN, #HrS, #HrV, HtBP, HtVN, HtS⟩, HcB, HcV, #Hlev⟩, ⟨%fs, Hs⟩, ⟨%fh, Hh⟩, ⟨%fp, Hp⟩⟩,
    Ho, ⟨%d0, %g0, %hg0, Hx⟩, ⟨%d1, %g1, %hg1, Hk⟩, ⟨%d2, %fo, %hg2, Hout⟩⟩
  have hx : g0 = xOf m c := (show g0 = _ from hg0).trans (by unfold Dat.before; rw [if_pos (fetch0_0 t₀)]; exact xstg_eq m c)
  have hk : g1 = kOf m c := (show g1 = _ from hg1).trans (by unfold Dat.before; rw [if_pos (fetch0_1 t₀)]; exact kstg_eq m c)
  subst hx hk
  unfold Dat.owesAt Pipeline.owesWithin
  icases Ho with ⟨%W, %hW, HO⟩
  rw [show (dats m 0 c).owed t₀.castSucc = O₀ c from rfl]
  unfold O₀
  sl_unfold [cc0_body]
  sl_exec
  have hs : sM.view.writes (Elt F) fs [⟨Rect.unit (s := S4x3x256) ![0, 0, 0] S4x3x256.size inb_S4x3x256_S4x3x256_0_0_0, bodyRun.sl.v32 m c⟩]
      = (tailOf (xOf m c) : S4x3x256.Idx → F .f32) := by
    sl_unfold_run_names
    exact send_val c fs (xOf m c)
  rw [hs]
  sl_exec
  have hout : oM.view.writes (Elt F) fo
      [⟨Rect.unit (s := S4x512x256) ![0, 0, 0] S4x3x256.size inb_S4x512x256_S4x3x256_0_0_0,
          k0_pay1 (bodyRun.sl.r m c) (bodyRun.sl.r_3 m c) (bodyRun.sl.r_4 m c HatV_pay1_v)
            (bodyRun.sl.r_5 m c HatV_pay1_v) (bodyRun.sl.r_6 m c HatV_pay1_v) (bodyRun.sl.r_7 m c)⟩,
        ⟨Rect.unit (s := S4x512x256) ![0, 0, 0] S4x512x256.size inb_S4x512x256_S4x512x256_0_0_0,
          k0_pay9 (bodyRun.sl.r m c) (bodyRun.sl.r_1 m c) (bodyRun.sl.v59 m c) (bodyRun.sl.r_2 m c)
            (bodyRun.sl.v66 m c)⟩] = outAt m c := by
    sl_unfold_run_names
    exact out_val c fo HatV_pay1_v (xOf m c) (kOf m c) (xOf m (prv c))
  rw [hout]
  -- the two own cells close: their counters at zero are the device's again
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  sl_step
  unfold bodyPost Φ₁ Dat.owesAt Pipeline.owesWithin sendPts haloPts padPts owns
  rw [show (dats m 0 c).owed t₀.succ = 0 from rfl]
  isplitl [HatS_pay1 HatV_pay1 Hp HzS HzV]
  · isplitl [HatS_pay1]; · iexists _; iexact HatS_pay1
    isplitl [HatV_pay1]; · iexists _; iexact HatV_pay1
    isplitl [Hp]; · iexists _; iexact Hp
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists (xOf m c); isplitr; · (ipureintro; exact (xstg_eq m c).symm)
    iexact Hx
  isplitl [Hk]
  · iexists (kOf m c); isplitr; · (ipureintro; exact (kstg_eq m c).symm)
    iexact Hk
  iexists (outAt m c); isplitr; · (ipureintro; rfl)
  iexact Hout

/-- The library's body obligation on device c. -/
theorem body_obligation (c : Dev nD) : BodyObligation (dats (F := F) m 0 c) (defs₀ (F := F)) 𝒱₀ () Set.univ := fun t => by
  rw [fin_N t]
  rw [bigSep_W0, bigSep_W0]
  exact (bodyRun m c).2

end Cert.Kernel.Halo

end
-- ==== Proof.KLaunch.lean ====
/-
  From "each device's body is proved" to the run of the whole mesh.

  At launch every cell of the ring is allocated for all four devices under one update, because a cell's invariant is
  shared: the barrier cell of c is opened by c (its wait) and by nxt c (its signal), the receive cell of c by c and by
  prv c (its copy). The duty tokens are dealt to the devices that PAY them: the token of c's barrier duty goes to nxt c,
  the token of c's receive duty to prv c, the token of c's send duty stays with c. The launch credit each device holds is
  what the others owe its cells: one unit on its barrier cell, the copy's credit on its receive cell.
-/
import proofs.«900354_g7700000000000355_dist_gconv1d_seqshard_i_b4_s512_c256_v7x_i4_f32_1_alg».proof.Proof.KBody

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- Each cell's one duty token as minted: round 0, duty false. -/
abbrev tokOf (ck : Dev nD × Fin 3) : GSem nD τ sig × ℕ × Bool := (kcell ck, 0, false)
theorem tokOf_injective : Function.Injective (tokOf : Dev nD × Fin 3 → GSem nD τ sig × ℕ × Bool) :=
  fun a b h => kcell_injective (congrArg Prod.fst h)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop(dutyTok ER (barCell c) 0 false ∗ dutyTok ER (sendCell c) 0 false ∗ dutyTok ER (recvCell c) 0 false)

/-- What the launch element deals device c. -/
def G (c : Dev nD) : sProp 𝕄 :=
  iprop((bigSep Finset.univ fun k : Fin 3 => roundState ER (haloRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (haloRd m) ringCells ringToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (haloRd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv ER (haloRd m) (K ck) (kcell ck) : sProp 𝕄)) ⊢ cellInv ER (haloRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (prv c)) 0 false ∗ dutyTok ER (recvCell (nxt c)) 0 false ∗ dutyTok ER (sendCell c) 0 false)
def linear (c : Dev nD) : sProp 𝕄 :=
  iprop((atPos ER (barCell c) 0 ∅ 0 ∗ atPos ER (sendCell c) 0 ∅ 0 ∗ atPos ER (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

omit [FloatOps F] in
/-- The tokens dealt around the ring: a barrier's token one device up (to nxt), a receive token one device down (to prv). -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (recvCell c) 0 false : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (haloRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if c is the device before d. -/
theorem owed_bar (d c : Dev nD) : O₀ d (barCell c) () = if d = nxt c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

omit [FloatOps F] in
theorem owed_recv (d c : Dev nD) : O₀ d (recvCell c) () = if d = prv c then N else 0 := by
  unfold O₀
  rw [Pi.add_apply, Finsupp.add_apply, tallyAt_apply,
    tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (prv c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, H0⟩, ⟨%f1, H1⟩, ⟨%f2, H2⟩⟩
  isplitl [Hs]; · iexact Hs
  isplitl [H0]; · iexists f0; rw [sendPts_eq]; iexact H0
  isplitl [H1]; · iexists f1; rw [haloPts_eq]; iexact H1
  iexists f2; rw [padPts_eq]; iexact H2

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f0, H0⟩, ⟨%f1, H1⟩, ⟨%f2, H2⟩, HzS, HzV⟩
  isplitr; · iempintro
  isplitl [HzS HzV]
  · isplitl [HzS] <;> iassumption
  isplitl [H0]; · iexists f0; rw [← sendPts_eq]; iexact H0
  isplitl [H1]; · iexists f1; rw [← haloPts_eq]; iexact H1
  iexists f2; rw [← padPts_eq]; iexact H2

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the mesh of four devices, for any float values, from any memory with every semaphore at zero: every weakly fair
    execution of the four bodies terminates without a fault, and each window's array ends at the proof data's contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.Halo

end
-- ==== Proof.KFinal.lean ====
/-
  The run read at the arrays: after every execution each device's result array holds its result block and its two
  argument arrays hold what they held.
-/
import proofs.«900354_g7700000000000355_dist_gconv1d_seqshard_i_b4_s512_c256_v7x_i4_f32_1_alg».proof.Proof.KLaunch

noncomputable section

namespace Cert.Kernel.Halo

open Cert.Kernel Cert.Kernel.Gen

open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- An input window's array is never written. -/
theorem finalA_x (c : Dev nD) : finalA m c (0 : Fin 3) = m ((c : Thread nD τ).loc main_arg0) :=
  (dats (F := F) m 0 c).arrAt_in (0 : Fin 3) rfl _
theorem finalA_k (c : Dev nD) : finalA m c (1 : Fin 3) = m ((c : Thread nD τ).loc main_arg1) :=
  (dats (F := F) m 0 c).arrAt_in (1 : Fin 3) rfl _

/-- The result array's one block, the whole array, read back is what the body left in the staging buffer. -/
theorem finalA_o_read (c : Dev nD) :
    (win0_2.blk (0 : Fin 1)).view.read (Elt F) (finalA m c (2 : Fin 3)) = outAt m c := by
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

theorem finalA_o (c : Dev nD) : finalA m c (2 : Fin 3) = outAt m c := by
  have h := finalA_o_read m c
  rwa [Memref.read_access_unit_zero (Elt F) main_v1 (funext fun a => by fin_cases a <;> rfl) (fun a => by fin_cases a <;> decide)] at h

/-- Every weakly fair execution on the four devices terminates without a fault; each device's result array ends at its
    result block — a pure function of its own block, the taps and the block of the device before it — and its argument
    arrays end as they began. -/
theorem run_value : θ_run defs (onTc (τ := τ) (main (F := F))) ⟨m, fun _ => 0, ρ⟩ (fun r => ∀ c : Dev nD,
      r.2.mem ((c.tc : Thread nD τ).loc main_v1) = outOf c (xOf m c) (kOf m c) (xOf m (prv c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (finalA_o m c), (h c (0 : Fin 3)).trans (finalA_x m c), (h c (1 : Fin 3)).trans (finalA_k m c)⟩)
    (run_main m ρ)

end Cert.Kernel.Halo

end
-- ==== Proof.BridgeAlg.lean ====
/-
  Scalar laws on the extended reals that join the two ways of writing a causal four-tap convolution followed by
  y ↦ y · logistic y.

  The activation: logistic y = 1 / (1 + e^(−y)), and e^(−y) is never negative, so the divisor 1 + e^(−y) is never zero,
  for every extended real y (at −∞ it is +∞, at +∞ it is 1). Hence y · logistic y = y / (1 + e^(−y)) with no finiteness
  assumption.

  The sums: addition of extended reals is commutative and associative, and 0 · k = 0 for every k (infinite ones too), so
  a four-term sum of products may be regrouped freely and terms with a zero factor dropped. Four shapes are needed: the
  plain row (all four taps inside one block), and the first three rows of a block, where the taps reaching before the
  block's start come from three rows h₀ h₁ h₂ supplied separately and the block's own padding contributes 0 · k.
-/
import Idealize.ShloMosaic.Lib.IdealHost

namespace Cert.Proof.Bridge

open Idealize.ShloMosaic

/-- The exponential of an extended real is never negative. -/
theorem exp_nonneg (y : EReal) : 0 ≤ Ideal.exp y := by
  induction y using EReal.rec with
  | bot => exact le_rfl
  | coe r => exact EReal.coe_nonneg.mpr (Real.exp_nonneg r)
  | top => exact le_top

/-- So one plus an exponential is never zero. -/
theorem one_add_exp_ne_zero (y : EReal) : (1 : EReal) + Ideal.exp y ≠ 0 := by
  have h1 : (1 : EReal) ≤ 1 + Ideal.exp y := le_add_of_nonneg_right (exp_nonneg y)
  intro e
  rw [e] at h1
  exact absurd h1 (by simp)

/-- The activation the device applies: y ↦ y · logistic y. -/
noncomputable def act (y : EReal) : EReal := y * Ideal.logistic y

/-- The same activation as the one-device program writes it: y / (1 + e^(−y)), the one as its single-precision word. -/
noncomputable def refAct (y : EReal) : EReal := Ideal.div y (Ideal.ofBits .f32 0x3F800000#32 + Ideal.exp (-y))

/-- The two spellings agree at every extended real. -/
theorem act_eq (y : EReal) : act y = refAct y := by
  unfold act refAct
  rw [Ideal.ofBits_one_f32]
  exact Ideal.mul_one_div (one_add_exp_ne_zero (-y))

/-- A row whose four taps all lie inside the block: the sum started from zero is the sum. -/
theorem sum_plain (a0 a1 a2 a3 : EReal) :
    ((a0 + a1) + a2) + a3 = (((Ideal.ofBits .f32 0x00000000#32 + a0) + a1) + a2) + a3 := by
  rw [Ideal.ofBits_zero_f32, zero_add]

/-- Row 0 of a block: three taps reach the rows before it. -/
theorem sum_row0 (h0 h1 h2 x0 k0 k1 k2 k3 : EReal) :
    (((0 * k0 + 0 * k1) + 0 * k2) + x0 * k3) + ((h0 * k0 + h1 * k1) + h2 * k2)
      = (((Ideal.ofBits .f32 0x00000000#32 + h0 * k0) + h1 * k1) + h2 * k2) + x0 * k3 := by
  rw [Ideal.ofBits_zero_f32]
  simp only [zero_mul, zero_add, add_zero]
  ac_rfl

/-- Row 1 of a block: two taps reach the rows before it. -/
theorem sum_row1 (h1 h2 x0 x1 k0 k1 k2 k3 : EReal) :
    (((0 * k0 + 0 * k1) + x0 * k2) + x1 * k3) + (h1 * k0 + h2 * k1)
      = (((Ideal.ofBits .f32 0x00000000#32 + h1 * k0) + h2 * k1) + x0 * k2) + x1 * k3 := by
  rw [Ideal.ofBits_zero_f32]
  simp only [zero_mul, zero_add, add_zero]
  ac_rfl

/-- Row 2 of a block: one tap reaches the row before it. -/
theorem sum_row2 (h2 x0 x1 x2 k0 k1 k2 k3 : EReal) :
    (((0 * k0 + x0 * k1) + x1 * k2) + x2 * k3) + h2 * k0
      = (((Ideal.ofBits .f32 0x00000000#32 + h2 * k0) + x0 * k1) + x1 * k2) + x2 * k3 := by
  rw [Ideal.ofBits_zero_f32]
  simp only [zero_mul, zero_add, add_zero]
  ac_rfl

end Cert.Proof.Bridge
-- ==== Proof.BridgeKernel.lean ====
/-
  One device's result block read entry by entry.

  Every value the body computes is a composition of pointwise products, sums and logistics with layout operations: a tap
  row k[t, ·] cut out of the 4 × 256 tap array and broadcast over all batches and rows; a run of rows cut out of a
  block; three one-row pieces joined along the row axis. Read at one entry (b, s, c) each layout operation reads its
  operand at one entry, so the block's value there is a scalar expression in the padded block's entries
  pad[b, s + t, c], the taps k[t, c] and, for the first three rows, the three received rows.
-/
import proofs.«900354_g7700000000000355_dist_gconv1d_seqshard_i_b4_s512_c256_v7x_i4_f32_1_alg».proof.Proof.Spec
import proofs.«900354_g7700000000000355_dist_gconv1d_seqshard_i_b4_s512_c256_v7x_i4_f32_1_alg».proof.Proof.BridgeAlg
import Idealize.ShloMosaic.Lib.ValueLayout

noncomputable section

namespace Cert.Proof.Bridge

open Idealize.ShloMosaic Idealize.ShloMosaic.ValueIdx Cert.KernelIdeal Cert.KernelIdeal.Gen Cert.KernelIdeal.Halo

/-- A logistic at an entry is the logistic of the entry. -/
theorem logistic_apply {s : Shape} {φ : FTy} (a : FVec Ideal s φ) (i : s.Idx) : logistic a i = Ideal.logistic (a i) := rfl

/-- Tap row `t` of the 4 × 256 tap array, broadcast over batches and rows, reads k[t, c] at every entry (b, s, c). -/
theorem tapRow_apply {α : Type} {n : Nat} (o : Nat) (k : (⟨2, ![4, 256]⟩ : Shape).Idx → α)
    (h1 : (⟨2, ![4, 256]⟩ : Shape).Slices ![o, 0] ⟨2, ![1, 256]⟩)
    (h2 : (⟨2, ![1, 256]⟩ : Shape).ShapeCasts ⟨1, ![256]⟩)
    (h3 : (⟨1, ![256]⟩ : Shape).ShapeCasts ⟨3, ![1, 1, 256]⟩)
    (h4 : (⟨3, ![1, 1, 256]⟩ : Shape).Broadcasts ⟨3, ![4, n, 256]⟩)
    (b : Fin 4) (s : Fin n) (ch : Fin 256) (t : Fin 4) (ht : t.val = o) :
    broadcastTo ⟨3, ![4, n, 256]⟩ (shapeCast ⟨3, ![1, 1, 256]⟩ (shapeCast ⟨1, ![256]⟩
      (extractStridedSlice ⟨2, ![1, 256]⟩ ![o, 0] k h1) h2) h3) h4 (ix3 b s ch) = k (ix2 t ch) := by
  refine (broadcastTo_apply _ h4 (ix3 b s ch) (ix3 (0 : Fin 1) (0 : Fin 1) ch) (fun a => ?_)).trans ?_
  · match a with
    | ⟨0, _⟩ => rfl
    | ⟨1, _⟩ => rfl
    | ⟨2, _⟩ => rfl
  refine (shapeCast_apply _ h3 (ix3 (0 : Fin 1) (0 : Fin 1) ch) (ix1 ch) ?_).trans ?_
  · rw [Shape.rowMajor_val_three, Shape.rowMajor_val_one]
    show ch.val = (0 * 1 + 0) * 256 + ch.val
    omega
  refine (shapeCast_1a_a_apply _ h2 ch).trans ?_
  exact slice2_axis0_apply o k h1 (0 : Fin 1) ch t (by rw [ht]; rfl)

/-- The tap array re-cast to its own shape is itself. -/
theorem pay5_eq (k : S4x256.Idx → Ideal .f32) : k0_pay5 (F := Ideal) k = k := by
  unfold k0_pay5
  exact shapeCast_self k _

/-- The four-tap sum over the padded block at an entry. -/
theorem accOf_apply (x : S4x512x256.Idx → Ideal .f32) (k : S4x256.Idx → Ideal .f32) (b : Fin 4) (s : Fin 512) (ch : Fin 256) :
    accOf (F := Ideal) x k (ix3 b s ch)
      = ((winOf 0 x (ix3 b s ch) * k (ix2 (0 : Fin 4) ch) + winOf 1 x (ix3 b s ch) * k (ix2 (1 : Fin 4) ch))
          + winOf 2 x (ix3 b s ch) * k (ix2 (2 : Fin 4) ch)) + winOf 3 x (ix3 b s ch) * k (ix2 (3 : Fin 4) ch) := by
  unfold accOf k0_pay8 k0_pay6 k0_pay7
  rw [pay5_eq]
  dsimp only
  simp only [addf_apply, mulf_apply]
  rw [tapRow_apply 0 k _ _ _ _ b s ch 0 rfl, tapRow_apply 1 k _ _ _ _ b s ch 1 rfl,
    tapRow_apply 2 k _ _ _ _ b s ch 2 rfl, tapRow_apply 3 k _ _ _ _ b s ch 3 rfl]

/-- A padded row below 3 is zero. -/
theorem padOf_lo (x : S4x512x256.Idx → Ideal .f32) (b : Fin 4) (r : Fin 515) (ch : Fin 256) (hr : r.val < 3) :
    padOf (F := Ideal) x (ix3 b r ch) = 0 :=
  (dif_pos hr).trans Ideal.ofBits_zero_f32

/-- Padded row q + 3 is row q of the block. -/
theorem padOf_hi (x : S4x512x256.Idx → Ideal .f32) (b : Fin 4) (r : Fin 515) (ch : Fin 256) (q : Fin 512)
    (hq : q.val + 3 = r.val) : padOf (F := Ideal) x (ix3 b r ch) = x (ix3 b q ch) := by
  refine (dif_neg (show ¬ r.val < 3 by omega)).trans (congrArg x ?_)
  exact congrArg (fun q' => ix3 b q' ch) (Fin.ext (by show r.val - 3 = q.val; omega))

/-- The four-tap sum at an entry of row s, in the padded rows s, s + 1, s + 2, s + 3. -/
theorem accOf_pad (x : S4x512x256.Idx → Ideal .f32) (k : S4x256.Idx → Ideal .f32) (b : Fin 4) (s : Fin 512) (ch : Fin 256)
    (r0 r1 r2 r3 : Fin 515) (h0 : r0.val = s.val) (h1 : r1.val = s.val + 1) (h2 : r2.val = s.val + 2)
    (h3 : r3.val = s.val + 3) :
    accOf (F := Ideal) x k (ix3 b s ch)
      = ((padOf (F := Ideal) x (ix3 b r0 ch) * k (ix2 (0 : Fin 4) ch) + padOf (F := Ideal) x (ix3 b r1 ch) * k (ix2 (1 : Fin 4) ch))
          + padOf (F := Ideal) x (ix3 b r2 ch) * k (ix2 (2 : Fin 4) ch)) + padOf (F := Ideal) x (ix3 b r3 ch) * k (ix2 (3 : Fin 4) ch) := by
  have w0 : winOf 0 x (ix3 b s ch) = padOf (F := Ideal) x (ix3 b r0 ch) :=
    congrArg (fun r => padOf (F := Ideal) x (ix3 b r ch)) (Fin.ext (by show s.val + 0 = r0.val; omega))
  have w1 : winOf 1 x (ix3 b s ch) = padOf (F := Ideal) x (ix3 b r1 ch) :=
    congrArg (fun r => padOf (F := Ideal) x (ix3 b r ch)) (Fin.ext (by show s.val + 1 = r1.val; omega))
  have w2 : winOf 2 x (ix3 b s ch) = padOf (F := Ideal) x (ix3 b r2 ch) :=
    congrArg (fun r => padOf (F := Ideal) x (ix3 b r ch)) (Fin.ext (by show s.val + 2 = r2.val; omega))
  have w3 : winOf 3 x (ix3 b s ch) = padOf (F := Ideal) x (ix3 b r3 ch) :=
    congrArg (fun r => padOf (F := Ideal) x (ix3 b r ch)) (Fin.ext (by show s.val + 3 = r3.val; omega))
  rw [accOf_apply, w0, w1, w2, w3]

/-- The block's first value at an entry: the activation of the four-tap sum. -/
theorem fullOf_apply (x : S4x512x256.Idx → Ideal .f32) (k : S4x256.Idx → Ideal .f32) (j : S4x512x256.Idx) :
    fullOf (F := Ideal) x k j = act (accOf (F := Ideal) x k j) := rfl

/-- Row `t` of a three-row array, cut out as a one-row array, reads that row. -/
theorem row_apply {α : Type} (t : Nat) (v : (⟨3, ![4, 3, 256]⟩ : Shape).Idx → α)
    (h : (⟨3, ![4, 3, 256]⟩ : Shape).Slices ![0, t, 0] ⟨3, ![4, 1, 256]⟩)
    (b : Fin 4) (u : Fin 1) (ch : Fin 256) (r : Fin 3) (hr : r.val = t) :
    extractStridedSlice ⟨3, ![4, 1, 256]⟩ ![0, t, 0] v h (ix3 b u ch) = v (ix3 b r ch) :=
  slice3_axis1_apply t v h b u ch r (by have := u.isLt; omega)

/-- The first three rows of a 512-row block, cut out, read the block's rows. -/
theorem head3_apply {α : Type} (v : (⟨3, ![4, 512, 256]⟩ : Shape).Idx → α)
    (h : (⟨3, ![4, 512, 256]⟩ : Shape).Slices ![0, 0, 0] ⟨3, ![4, 3, 256]⟩)
    (b : Fin 4) (r : Fin 3) (ch : Fin 256) (s : Fin 512) (hs : s.val = r.val) :
    extractStridedSlice ⟨3, ![4, 3, 256]⟩ ![0, 0, 0] v h (ix3 b r ch) = v (ix3 b s ch) :=
  slice3_axis1_apply 0 v h b r ch s (by omega)

/-- Three one-row arrays joined along the row axis: row `r` of the join is piece `r`. -/
theorem join3_apply {α : Type} (p0 p1 p2 : (⟨3, ![4, 1, 256]⟩ : Shape).Idx → α)
    (H : Shape.Concatenates (([⟨⟨3, ![4, 1, 256]⟩, p0⟩, ⟨⟨3, ![4, 1, 256]⟩, p1⟩, ⟨⟨3, ![4, 1, 256]⟩, p2⟩] :
      List ((s : Shape) × (s.Idx → α))).map (·.1)) ⟨3, ![4, 3, 256]⟩ 1) (b : Fin 4) (ch : Fin 256) :
    concatenate ⟨3, ![4, 3, 256]⟩ 1 [⟨⟨3, ![4, 1, 256]⟩, p0⟩, ⟨⟨3, ![4, 1, 256]⟩, p1⟩, ⟨⟨3, ![4, 1, 256]⟩, p2⟩] H (ix3 b (0 : Fin 3) ch)
        = p0 (ix3 b (0 : Fin 1) ch)
      ∧ concatenate ⟨3, ![4, 3, 256]⟩ 1 [⟨⟨3, ![4, 1, 256]⟩, p0⟩, ⟨⟨3, ![4, 1, 256]⟩, p1⟩, ⟨⟨3, ![4, 1, 256]⟩, p2⟩] H (ix3 b (1 : Fin 3) ch)
        = p1 (ix3 b (0 : Fin 1) ch)
      ∧ concatenate ⟨3, ![4, 3, 256]⟩ 1 [⟨⟨3, ![4, 1, 256]⟩, p0⟩, ⟨⟨3, ![4, 1, 256]⟩, p1⟩, ⟨⟨3, ![4, 1, 256]⟩, p2⟩] H (ix3 b (2 : Fin 3) ch)
        = p2 (ix3 b (0 : Fin 1) ch) := by
  have hi : ∀ (r : Fin 3) (a : Fin 3), a.cast (rfl : (3 : Nat) = 3) ≠ (1 : Fin 3) →
      ((ix3 b (0 : Fin 1) ch : (⟨3, ![4, 1, 256]⟩ : Shape).Idx) a).val
        = ((ix3 b r ch : (⟨3, ![4, 3, 256]⟩ : Shape).Idx) (a.cast rfl)).val := fun r a ha => by
    match a with
    | ⟨0, _⟩ => rfl
    | ⟨1, _⟩ => exact absurd rfl ha
    | ⟨2, _⟩ => rfl
  refine ⟨?_, ?_, ?_⟩
  · exact concatenate_apply_piece (t := ⟨3, ![4, 3, 256]⟩) (1 : Fin 3) [⟨⟨3, ![4, 1, 256]⟩, p0⟩, ⟨⟨3, ![4, 1, 256]⟩, p1⟩, ⟨⟨3, ![4, 1, 256]⟩, p2⟩] H (ix3 b (0 : Fin 3) ch) 0 (by show (0 : Nat) < 3; decide) ⟨3, ![4, 1, 256]⟩ p0 rfl rfl 0 rfl (ix3 b (0 : Fin 1) ch) (hi 0) rfl
  · exact concatenate_apply_piece (t := ⟨3, ![4, 3, 256]⟩) (1 : Fin 3) [⟨⟨3, ![4, 1, 256]⟩, p0⟩, ⟨⟨3, ![4, 1, 256]⟩, p1⟩, ⟨⟨3, ![4, 1, 256]⟩, p2⟩] H (ix3 b (1 : Fin 3) ch) 1 (by show (1 : Nat) < 3; decide) ⟨3, ![4, 1, 256]⟩ p1 rfl rfl 1 rfl (ix3 b (0 : Fin 1) ch) (hi 1) rfl
  · exact concatenate_apply_piece (t := ⟨3, ![4, 3, 256]⟩) (1 : Fin 3) [⟨⟨3, ![4, 1, 256]⟩, p0⟩, ⟨⟨3, ![4, 1, 256]⟩, p1⟩, ⟨⟨3, ![4, 1, 256]⟩, p2⟩] H (ix3 b (2 : Fin 3) ch) 2 (by show (2 : Nat) < 3; decide) ⟨3, ![4, 1, 256]⟩ p2 rfl rfl 2 rfl (ix3 b (0 : Fin 1) ch) (hi 2) rfl

/-- Row 0 of the redone head: the four-tap sum of the own block plus the three taps that reach the received rows. -/
theorem headOf_row0 (w : BitVec 32) (x : S4x512x256.Idx → Ideal .f32) (k : S4x256.Idx → Ideal .f32)
    (h : S4x3x256.Idx → Ideal .f32) (b : Fin 4) (ch : Fin 256) :
    headOf (F := Ideal) w x k h (ix3 b (0 : Fin 3) ch)
      = act (accOf (F := Ideal) x k (ix3 b (0 : Fin 512) ch)
          + ((k0_pay10 (F := Ideal) w h (ix3 b (0 : Fin 3) ch) * k (ix2 (0 : Fin 4) ch)
              + k0_pay10 (F := Ideal) w h (ix3 b (1 : Fin 3) ch) * k (ix2 (1 : Fin 4) ch))
            + k0_pay10 (F := Ideal) w h (ix3 b (2 : Fin 3) ch) * k (ix2 (2 : Fin 4) ch))) := by
  unfold headOf k0_pay1 k0_pay11 k0_pay12 k0_pay13
  rw [pay5_eq]
  dsimp only
  simp only [addf_apply, mulf_apply, logistic_apply]
  show act _ = act _
  refine congrArg act (congrArg₂ (· + ·) (head3_apply _ _ b 0 ch 0 rfl) ?_)
  refine (join3_apply _ _ _ _ b ch).1.trans ?_
  simp only [addf_apply, mulf_apply]
  rw [row_apply 0 _ _ b 0 ch 0 rfl, row_apply 1 _ _ b 0 ch 1 rfl, row_apply 2 _ _ b 0 ch 2 rfl,
    tapRow_apply 0 k _ _ _ _ b 0 ch 0 rfl, tapRow_apply 1 k _ _ _ _ b 0 ch 1 rfl, tapRow_apply 2 k _ _ _ _ b 0 ch 2 rfl]

/-- Row 1 of the redone head: two taps reach the received rows. -/
theorem headOf_row1 (w : BitVec 32) (x : S4x512x256.Idx → Ideal .f32) (k : S4x256.Idx → Ideal .f32)
    (h : S4x3x256.Idx → Ideal .f32) (b : Fin 4) (ch : Fin 256) :
    headOf (F := Ideal) w x k h (ix3 b (1 : Fin 3) ch)
      = act (accOf (F := Ideal) x k (ix3 b (1 : Fin 512) ch)
          + (k0_pay10 (F := Ideal) w h (ix3 b (1 : Fin 3) ch) * k (ix2 (0 : Fin 4) ch)
              + k0_pay10 (F := Ideal) w h (ix3 b (2 : Fin 3) ch) * k (ix2 (1 : Fin 4) ch))) := by
  unfold headOf k0_pay1 k0_pay11 k0_pay12 k0_pay13
  rw [pay5_eq]
  dsimp only
  simp only [addf_apply, mulf_apply, logistic_apply]
  show act _ = act _
  refine congrArg act (congrArg₂ (· + ·) (head3_apply _ _ b 1 ch 1 rfl) ?_)
  refine (join3_apply _ _ _ _ b ch).2.1.trans ?_
  simp only [addf_apply, mulf_apply]
  rw [row_apply 1 _ _ b 0 ch 1 rfl, row_apply 2 _ _ b 0 ch 2 rfl,
    tapRow_apply 0 k _ _ _ _ b 0 ch 0 rfl, tapRow_apply 1 k _ _ _ _ b 0 ch 1 rfl]

/-- Row 2 of the redone head: one tap reaches the received rows. -/
theorem headOf_row2 (w : BitVec 32) (x : S4x512x256.Idx → Ideal .f32) (k : S4x256.Idx → Ideal .f32)
    (h : S4x3x256.Idx → Ideal .f32) (b : Fin 4) (ch : Fin 256) :
    headOf (F := Ideal) w x k h (ix3 b (2 : Fin 3) ch)
      = act (accOf (F := Ideal) x k (ix3 b (2 : Fin 512) ch)
          + k0_pay10 (F := Ideal) w h (ix3 b (2 : Fin 3) ch) * k (ix2 (0 : Fin 4) ch)) := by
  unfold headOf k0_pay1 k0_pay11 k0_pay12 k0_pay13
  rw [pay5_eq]
  dsimp only
  simp only [addf_apply, mulf_apply, logistic_apply]
  show act _ = act _
  refine congrArg act (congrArg₂ (· + ·) (head3_apply _ _ b 2 ch 2 rfl) ?_)
  refine (join3_apply _ _ _ _ b ch).2.2.trans ?_
  simp only [addf_apply, mulf_apply]
  rw [row_apply 2 _ _ b 0 ch 2 rfl, tapRow_apply 0 k _ _ _ _ b 0 ch 0 rfl]

/-- The received rows as the device uses them: zeros on the device whose position word is 0, the rows themselves on
    every other device. -/
theorem pay10_apply (w : BitVec 32) (h : S4x3x256.Idx → Ideal .f32) (j : S4x3x256.Idx) :
    k0_pay10 (F := Ideal) w h j = if w = 0#32 then Ideal.ofBits .f32 0x00000000#32 else h j := by
  show Scalar.select (Scalar.cmpi .eq w 0#32) (broadcast S4x3x256 (Scalar.ofBits .f32 0x00000000#32 : Ideal .f32)) h j = _
  by_cases hw : w = 0#32
  · subst hw
    rw [if_pos rfl]
    rfl
  · rw [if_neg hw]
    have hc : Scalar.cmpi .eq w 0#32 = 0#1 := by
      show BitVec.ofBool (w == 0#32) = 0#1
      rw [show (w == 0#32) = false from beq_false_of_ne hw]
      rfl
    rw [hc, select_zero]

end Cert.Proof.Bridge

end
-- ==== Proof.BridgeRef.lean ====
/-
  The one-device program read entry by entry.

  It pads the sequence with three zero rows in front (2051 rows), takes the four windows of 2048 rows starting at rows
  0, 1, 2, 3 of the padded array, multiplies window t by tap row k[t, ·], adds them up starting from zero, and divides
  the sum by one plus the exponential of its negation. At entry (b, g, c) every one of these operations reads its
  operands at one entry, so the result there is a scalar expression in pad[b, g + t, c] and k[t, c]; and a padded row
  below 3 is zero, a padded row r ≥ 3 is row r − 3 of the sequence.
-/
import proofs.«900354_g7700000000000355_dist_gconv1d_seqshard_i_b4_s512_c256_v7x_i4_f32_1_alg».proof.Proof.Gen.ReferenceIdeal.Read
import proofs.«900354_g7700000000000355_dist_gconv1d_seqshard_i_b4_s512_c256_v7x_i4_f32_1_alg».proof.Proof.BridgeAlg
import Idealize.ShloMosaic.Lib.ValueLayout

noncomputable section

namespace Cert.Proof.Bridge

open Idealize.ShloMosaic Idealize.ShloMosaic.ValueIdx Cert.ReferenceIdeal Cert.ReferenceIdeal.Read

/-- The first three rows of the padded array are zero. -/
theorem pad_lo (X : (⟨S4x2048x256, .f32⟩ : BufTy).Contents (Elt Ideal)) (b : Fin 4) (r : Fin 2051) (ch : Fin 256) (hr : r.val < 3) :
    val_main_v1 (F := Ideal) X (ix3 b r ch) = Ideal.ofBits .f32 0x00000000#32 := by
  unfold val_main_v1
  refine (concatenate_pair_apply_left (t := S4x2051x256) (s₁ := S4x3x256) (s₂ := S4x2048x256) (1 : Fin 3)
    (val_main_v0 (F := Ideal)) X _ (ix3 b r ch) rfl (ix3 b (⟨r.val, hr⟩ : Fin 3) ch)
    (fun a => ?_)).trans ?_
  · match a with
    | ⟨0, _⟩ => rfl
    | ⟨1, _⟩ => rfl
    | ⟨2, _⟩ => rfl
  rw [val_main_v0_apply, val_main_cst_apply]
  rfl

/-- Row q + 3 of the padded array is row q of the sequence. -/
theorem pad_hi (X : (⟨S4x2048x256, .f32⟩ : BufTy).Contents (Elt Ideal)) (b : Fin 4) (r : Fin 2051) (ch : Fin 256) (q : Fin 2048) (hq : q.val + 3 = r.val) :
    val_main_v1 (F := Ideal) X (ix3 b r ch) = X (ix3 b q ch) := by
  unfold val_main_v1
  refine concatenate_pair_apply_right (t := S4x2051x256) (s₁ := S4x3x256) (s₂ := S4x2048x256) (1 : Fin 3)
    (val_main_v0 (F := Ideal)) X _ (ix3 b r ch) rfl rfl (ix3 b q ch) (fun a ha => ?_) hq
  match a with
  | ⟨0, _⟩ => rfl
  | ⟨1, _⟩ => exact absurd rfl ha
  | ⟨2, _⟩ => rfl

/-- The one-device result at entry (b, g, c), in the padded rows g, g + 1, g + 2, g + 3 and the four taps. -/
theorem ref_apply (X : (⟨S4x2048x256, .f32⟩ : BufTy).Contents (Elt Ideal)) (K : (⟨S4x256, .f32⟩ : BufTy).Contents (Elt Ideal)) (b : Fin 4) (g : Fin 2048) (ch : Fin 256) (r0 r1 r2 r3 : Fin 2051)
    (h0 : r0.val = g.val) (h1 : r1.val = 1 + g.val) (h2 : r2.val = 2 + g.val) (h3 : r3.val = 3 + g.val) :
    val_main_v35 (F := Ideal) X K (ix3 b g ch)
      = refAct ((((Ideal.ofBits .f32 0x00000000#32
            + val_main_v1 (F := Ideal) X (ix3 b r0 ch) * K (ix2 (0 : Fin 4) ch))
            + val_main_v1 (F := Ideal) X (ix3 b r1 ch) * K (ix2 (1 : Fin 4) ch))
            + val_main_v1 (F := Ideal) X (ix3 b r2 ch) * K (ix2 (2 : Fin 4) ch))
            + val_main_v1 (F := Ideal) X (ix3 b r3 ch) * K (ix2 (3 : Fin 4) ch)) := by
  have e3 : idx_main_v3 (ix3 b g ch) = ix3 b r0 ch := funext fun a => Fin.ext (by
    match a with
    | ⟨0, _⟩ => rfl
    | ⟨1, _⟩ => exact h0.symm
    | ⟨2, _⟩ => rfl)
  have e10 : idx_main_v10 (ix3 b g ch) = ix3 b r1 ch := funext fun a => Fin.ext (by
    match a with
    | ⟨0, _⟩ => rfl
    | ⟨1, _⟩ => exact h1.symm
    | ⟨2, _⟩ => rfl)
  have e17 : idx_main_v17 (ix3 b g ch) = ix3 b r2 ch := funext fun a => Fin.ext (by
    match a with
    | ⟨0, _⟩ => rfl
    | ⟨1, _⟩ => exact h2.symm
    | ⟨2, _⟩ => rfl)
  have e24 : idx_main_v24 (ix3 b g ch) = ix3 b r3 ch := funext fun a => Fin.ext (by
    match a with
    | ⟨0, _⟩ => rfl
    | ⟨1, _⟩ => exact h3.symm
    | ⟨2, _⟩ => rfl)
  have tap0 : val_main_v7 (F := Ideal) K (ix3 b g ch) = K (ix2 (0 : Fin 4) ch) := by
    rw [val_main_v7_apply, val_main_v6_apply, val_main_v5_apply, val_main_v4_apply]
    exact congrArg K (funext fun a => Fin.ext (by
      match a with
      | ⟨0, _⟩ => rfl
      | ⟨1, _⟩ => exact Nat.mod_eq_of_lt ch.isLt))
  have tap1 : val_main_v14 (F := Ideal) K (ix3 b g ch) = K (ix2 (1 : Fin 4) ch) := by
    rw [val_main_v14_apply, val_main_v13_apply, val_main_v12_apply, val_main_v11_apply]
    exact congrArg K (funext fun a => Fin.ext (by
      match a with
      | ⟨0, _⟩ => rfl
      | ⟨1, _⟩ => exact Nat.mod_eq_of_lt ch.isLt))
  have tap2 : val_main_v21 (F := Ideal) K (ix3 b g ch) = K (ix2 (2 : Fin 4) ch) := by
    rw [val_main_v21_apply, val_main_v20_apply, val_main_v19_apply, val_main_v18_apply]
    exact congrArg K (funext fun a => Fin.ext (by
      match a with
      | ⟨0, _⟩ => rfl
      | ⟨1, _⟩ => exact Nat.mod_eq_of_lt ch.isLt))
  have tap3 : val_main_v28 (F := Ideal) K (ix3 b g ch) = K (ix2 (3 : Fin 4) ch) := by
    rw [val_main_v28_apply, val_main_v27_apply, val_main_v26_apply, val_main_v25_apply]
    exact congrArg K (funext fun a => Fin.ext (by
      match a with
      | ⟨0, _⟩ => rfl
      | ⟨1, _⟩ => exact Nat.mod_eq_of_lt ch.isLt))
  rw [val_main_v35_apply, val_main_v34_apply, val_main_v33_apply, val_main_cst_1_apply, val_main_v32_apply,
    val_main_v31_apply, val_main_v30_apply, val_main_v29_apply, val_main_v23_apply, val_main_v22_apply,
    val_main_v16_apply, val_main_v15_apply, val_main_v9_apply, val_main_v8_apply, val_main_v2_apply,
    val_main_cst_0_apply, val_main_v3_apply, val_main_v10_apply, val_main_v17_apply, val_main_v24_apply,
    e3, e10, e17, e24, tap0, tap1, tap2, tap3]
  rfl

end Cert.Proof.Bridge

end
-- ==== Proof.Bridge.lean ====
/-
  One device's result block is its block of the one-device result.

  Entry (b, s, c) of device d's block is entry (b, g, c) of the whole result with g = 512 · d + s. The one-device
  program reads there the padded rows g, g + 1, g + 2, g + 3 of the whole sequence, and padded row 512 · d + r of the
  whole sequence (r < 515) is
    • for r ≥ 3, row r − 3 of device d's own block — its own padded row r;
    • for r < 3 and d ≠ 0, row 512 · (d − 1) + 509 + r of the sequence: row 509 + r of the block of the device before
      d, one of the three rows that device sends;
    • for r < 3 and d = 0, zero — what device 0 takes in place of received rows.
  So for s ≥ 3 both sides are the same four products, and for s < 3 they are the same four products split between the
  own padded block (whose first three rows contribute 0 · k) and the received rows; the scalar laws on the extended
  reals regroup the sums and identify the two spellings of the activation.
-/
import proofs.«900354_g7700000000000355_dist_gconv1d_seqshard_i_b4_s512_c256_v7x_i4_f32_1_alg».proof.Proof.BridgeKernel
import proofs.«900354_g7700000000000355_dist_gconv1d_seqshard_i_b4_s512_c256_v7x_i4_f32_1_alg».proof.Proof.BridgeRef
import Idealize.ShloMosaic.Lib.Layout

noncomputable section

namespace Cert.Proof.Bridge

open Idealize.ShloMosaic Idealize.ShloMosaic.ValueIdx Cert.KernelIdeal.Halo

/-- Entry (b, s, c) of block d of an array cut into four along the rows is entry (b, 512 · d + s, c) of the array. -/
theorem block_at {α : Type} (d : Fin 4) (X : (⟨3, ![4, 2048, 256]⟩ : Shape).Idx → α)
    (hT : Layout.Tiles ⟨3, ![4, 512, 256]⟩ ⟨3, ![4, 2048, 256]⟩ 1 4) (b : Fin 4) (s : Fin 512) (ch : Fin 256)
    (g : Fin 2048) (hg : g.val = d.val * 512 + s.val) :
    Layout.block ⟨3, ![4, 512, 256]⟩ ⟨3, ![4, 2048, 256]⟩ 1 4 d X hT (ix3 b s ch) = X (ix3 b g ch) := by
  show X (hT.idx d (ix3 b s ch)) = _
  refine congrArg X (funext fun a => Fin.ext ?_)
  match a with
  | ⟨0, _⟩ => rfl
  | ⟨1, _⟩ => exact hg.symm
  | ⟨2, _⟩ => rfl

/-- The position word the body computes is zero exactly on the first device. -/
theorem posWord_eq_zero_iff (d : Dev Cert.KernelIdeal.nD) : posWord d = 0#32 ↔ d.val = 0 := by
  revert d
  decide

/-- The device before d on the ring. -/
theorem prv_val (d : Dev Cert.KernelIdeal.nD) : (prv d).val = (d.val + 3) % 4 := rfl

/-- A device's own padded row r ≥ 3 is padded row 512 · d + r of the whole sequence. -/
theorem own_row (d : Dev Cert.KernelIdeal.nD) (X : (⟨Cert.ReferenceIdeal.S4x2048x256, .f32⟩ : BufTy).Contents (Elt Ideal))
    (b : Fin 4) (ch : Fin 256) (r : Fin 515) (hr : 3 ≤ r.val) (R : Fin 2051) (hR : R.val = d.val * 512 + r.val) :
    padOf (F := Ideal) (Layout.block ⟨3, ![4, 512, 256]⟩ ⟨3, ![4, 2048, 256]⟩ 1 4 d X) (ix3 b r ch)
      = Cert.ReferenceIdeal.Read.val_main_v1 (F := Ideal) X (ix3 b R ch) := by
  have hd : d.val < 4 := d.isLt
  have hr' : r.val < 515 := r.isLt
  rw [padOf_hi _ b r ch ⟨r.val - 3, by omega⟩ (by show r.val - 3 + 3 = r.val; omega),
    pad_hi X b R ch ⟨d.val * 512 + (r.val - 3), by omega⟩ (by show d.val * 512 + (r.val - 3) + 3 = R.val; omega)]
  exact block_at d X _ b _ ch _ rfl

/-- The received rows as the device uses them are padded rows 512 · d + r, r < 3, of the whole sequence: rows
    509 + r of the block before on every device but the first, zero on the first. -/
theorem halo_row (d : Dev Cert.KernelIdeal.nD) (X : (⟨Cert.ReferenceIdeal.S4x2048x256, .f32⟩ : BufTy).Contents (Elt Ideal))
    (b : Fin 4) (ch : Fin 256) (q : Fin 3) (R : Fin 2051) (hR : R.val = d.val * 512 + q.val) :
    Cert.KernelIdeal.Gen.k0_pay10 (F := Ideal) (posWord d)
        (tailOf (F := Ideal) (Layout.block ⟨3, ![4, 512, 256]⟩ ⟨3, ![4, 2048, 256]⟩ 1 4 (prv d) X)) (ix3 b q ch)
      = Cert.ReferenceIdeal.Read.val_main_v1 (F := Ideal) X (ix3 b R ch) := by
  have hd : d.val < 4 := d.isLt
  have hq : q.val < 3 := q.isLt
  rw [pay10_apply]
  by_cases hd0 : d.val = 0
  · rw [if_pos ((posWord_eq_zero_iff d).2 hd0), pad_lo X b R ch (by omega)]
  · rw [if_neg (fun h => hd0 ((posWord_eq_zero_iff d).1 h))]
    have hp : (prv d).val = d.val - 1 := by rw [prv_val]; omega
    rw [pad_hi X b R ch ⟨(prv d).val * 512 + (509 + q.val), by omega⟩
      (by show (prv d).val * 512 + (509 + q.val) + 3 = R.val; omega)]
    exact block_at (prv d) X _ b ⟨509 + q.val, by omega⟩ ch _ rfl

/-- One entry of the block: the device's value there is the one-device result at the entry's place in the whole. -/
theorem entry_eq (X : (⟨Cert.ReferenceIdeal.S4x2048x256, .f32⟩ : BufTy).Contents (Elt Ideal)) (K : (⟨Cert.ReferenceIdeal.S4x256, .f32⟩ : BufTy).Contents (Elt Ideal)) (d : Dev Cert.KernelIdeal.nD) (b : Fin 4) (s : Fin 512) (ch : Fin 256) :
    outOf (F := Ideal) d (Layout.block ⟨3, ![4, 512, 256]⟩ ⟨3, ![4, 2048, 256]⟩ 1 4 d X) K (Layout.block ⟨3, ![4, 512, 256]⟩ ⟨3, ![4, 2048, 256]⟩ 1 4 (prv d) X) (ix3 b s ch)
      = (Layout.block ⟨3, ![4, 512, 256]⟩ ⟨3, ![4, 2048, 256]⟩ 1 4 d (Cert.ReferenceIdeal.Read.val_main_v35 (F := Ideal) X K)) (ix3 b s ch) := by
  have hd : d.val < 4 := d.isLt
  have hs : s.val < 512 := s.isLt
  obtain ⟨G, hG⟩ : ∃ G : Fin 2048, G.val = d.val * 512 + s.val := ⟨⟨_, by omega⟩, rfl⟩
  obtain ⟨R0, hR0⟩ : ∃ R : Fin 2051, R.val = d.val * 512 + s.val := ⟨⟨_, by omega⟩, rfl⟩
  obtain ⟨R1, hR1⟩ : ∃ R : Fin 2051, R.val = d.val * 512 + s.val + 1 := ⟨⟨_, by omega⟩, rfl⟩
  obtain ⟨R2, hR2⟩ : ∃ R : Fin 2051, R.val = d.val * 512 + s.val + 2 := ⟨⟨_, by omega⟩, rfl⟩
  obtain ⟨R3, hR3⟩ : ∃ R : Fin 2051, R.val = d.val * 512 + s.val + 3 := ⟨⟨_, by omega⟩, rfl⟩
  rw [block_at d (Cert.ReferenceIdeal.Read.val_main_v35 (F := Ideal) X K) _ b s ch G hG,
    ref_apply X K b G ch R0 R1 R2 R3 (by omega) (by omega) (by omega) (by omega)]
  by_cases hlt : s.val < 3
  · have hs3 : s.val = 0 ∨ s.val = 1 ∨ s.val = 2 := by omega
    rcases hs3 with h0 | h1 | h2
    · -- row 0
      have q0 : R0.val = d.val * 512 + (0 : Fin 3).val := by show R0.val = d.val * 512 + 0; omega
      have q1 : R1.val = d.val * 512 + (1 : Fin 3).val := by show R1.val = d.val * 512 + 1; omega
      have q2 : R2.val = d.val * 512 + (2 : Fin 3).val := by show R2.val = d.val * 512 + 2; omega
      have q3 : R3.val = d.val * 512 + (⟨3, by omega⟩ : Fin 515).val := by show R3.val = d.val * 512 + 3; omega
      obtain rfl : s = (0 : Fin 512) := Fin.ext h0
      have e : outOf (F := Ideal) d (Layout.block ⟨3, ![4, 512, 256]⟩ ⟨3, ![4, 2048, 256]⟩ 1 4 d X) K (Layout.block ⟨3, ![4, 512, 256]⟩ ⟨3, ![4, 2048, 256]⟩ 1 4 (prv d) X) (ix3 b (0 : Fin 512) ch)
          = headOf (F := Ideal) (posWord d) (Layout.block ⟨3, ![4, 512, 256]⟩ ⟨3, ![4, 2048, 256]⟩ 1 4 d X) K (tailOf (F := Ideal) (Layout.block ⟨3, ![4, 512, 256]⟩ ⟨3, ![4, 2048, 256]⟩ 1 4 (prv d) X)) (ix3 b (0 : Fin 3) ch) :=
        dif_pos hlt
      rw [e, headOf_row0, act_eq,
        accOf_pad _ K b (0 : Fin 512) ch ⟨0, by omega⟩ ⟨1, by omega⟩ ⟨2, by omega⟩ ⟨3, by omega⟩ rfl rfl rfl rfl,
        padOf_lo _ b ⟨0, by omega⟩ ch (by show 0 < 3; omega),
        padOf_lo _ b ⟨1, by omega⟩ ch (by show 1 < 3; omega),
        padOf_lo _ b ⟨2, by omega⟩ ch (by show 2 < 3; omega),
        own_row d X b ch ⟨3, by omega⟩ (by show 3 ≤ 3; omega) R3 q3,
        halo_row d X b ch (0 : Fin 3) R0 q0,
        halo_row d X b ch (1 : Fin 3) R1 q1,
        halo_row d X b ch (2 : Fin 3) R2 q2]
      exact congrArg refAct (sum_row0 _ _ _ _ _ _ _ _)
    · -- row 1
      have q0 : R0.val = d.val * 512 + (1 : Fin 3).val := by show R0.val = d.val * 512 + 1; omega
      have q1 : R1.val = d.val * 512 + (2 : Fin 3).val := by show R1.val = d.val * 512 + 2; omega
      have q2 : R2.val = d.val * 512 + (⟨3, by omega⟩ : Fin 515).val := by show R2.val = d.val * 512 + 3; omega
      have q3 : R3.val = d.val * 512 + (⟨4, by omega⟩ : Fin 515).val := by show R3.val = d.val * 512 + 4; omega
      obtain rfl : s = (1 : Fin 512) := Fin.ext h1
      have e : outOf (F := Ideal) d (Layout.block ⟨3, ![4, 512, 256]⟩ ⟨3, ![4, 2048, 256]⟩ 1 4 d X) K (Layout.block ⟨3, ![4, 512, 256]⟩ ⟨3, ![4, 2048, 256]⟩ 1 4 (prv d) X) (ix3 b (1 : Fin 512) ch)
          = headOf (F := Ideal) (posWord d) (Layout.block ⟨3, ![4, 512, 256]⟩ ⟨3, ![4, 2048, 256]⟩ 1 4 d X) K (tailOf (F := Ideal) (Layout.block ⟨3, ![4, 512, 256]⟩ ⟨3, ![4, 2048, 256]⟩ 1 4 (prv d) X)) (ix3 b (1 : Fin 3) ch) :=
        dif_pos hlt
      rw [e, headOf_row1, act_eq,
        accOf_pad _ K b (1 : Fin 512) ch ⟨1, by omega⟩ ⟨2, by omega⟩ ⟨3, by omega⟩ ⟨4, by omega⟩ rfl rfl rfl rfl,
        padOf_lo _ b ⟨1, by omega⟩ ch (by show 1 < 3; omega),
        padOf_lo _ b ⟨2, by omega⟩ ch (by show 2 < 3; omega),
        own_row d X b ch ⟨3, by omega⟩ (by show 3 ≤ 3; omega) R2 q2,
        own_row d X b ch ⟨4, by omega⟩ (by show 3 ≤ 4; omega) R3 q3,
        halo_row d X b ch (1 : Fin 3) R0 q0,
        halo_row d X b ch (2 : Fin 3) R1 q1]
      exact congrArg refAct (sum_row1 _ _ _ _ _ _ _ _)
    · -- row 2
      have q0 : R0.val = d.val * 512 + (2 : Fin 3).val := by show R0.val = d.val * 512 + 2; omega
      have q1 : R1.val = d.val * 512 + (⟨3, by omega⟩ : Fin 515).val := by show R1.val = d.val * 512 + 3; omega
      have q2 : R2.val = d.val * 512 + (⟨4, by omega⟩ : Fin 515).val := by show R2.val = d.val * 512 + 4; omega
      have q3 : R3.val = d.val * 512 + (⟨5, by omega⟩ : Fin 515).val := by show R3.val = d.val * 512 + 5; omega
      obtain rfl : s = (2 : Fin 512) := Fin.ext h2
      have e : outOf (F := Ideal) d (Layout.block ⟨3, ![4, 512, 256]⟩ ⟨3, ![4, 2048, 256]⟩ 1 4 d X) K (Layout.block ⟨3, ![4, 512, 256]⟩ ⟨3, ![4, 2048, 256]⟩ 1 4 (prv d) X) (ix3 b (2 : Fin 512) ch)
          = headOf (F := Ideal) (posWord d) (Layout.block ⟨3, ![4, 512, 256]⟩ ⟨3, ![4, 2048, 256]⟩ 1 4 d X) K (tailOf (F := Ideal) (Layout.block ⟨3, ![4, 512, 256]⟩ ⟨3, ![4, 2048, 256]⟩ 1 4 (prv d) X)) (ix3 b (2 : Fin 3) ch) :=
        dif_pos hlt
      rw [e, headOf_row2, act_eq,
        accOf_pad _ K b (2 : Fin 512) ch ⟨2, by omega⟩ ⟨3, by omega⟩ ⟨4, by omega⟩ ⟨5, by omega⟩ rfl rfl rfl rfl,
        padOf_lo _ b ⟨2, by omega⟩ ch (by show 2 < 3; omega),
        own_row d X b ch ⟨3, by omega⟩ (by show 3 ≤ 3; omega) R1 q1,
        own_row d X b ch ⟨4, by omega⟩ (by show 3 ≤ 4; omega) R2 q2,
        own_row d X b ch ⟨5, by omega⟩ (by show 3 ≤ 5; omega) R3 q3,
        halo_row d X b ch (2 : Fin 3) R0 q0]
      exact congrArg refAct (sum_row2 _ _ _ _ _ _ _ _)
  · -- a row whose four taps stay inside the block
    obtain ⟨r0, hr0⟩ : ∃ r : Fin 515, r.val = s.val := ⟨⟨s.val, by omega⟩, rfl⟩
    obtain ⟨r1, hr1⟩ : ∃ r : Fin 515, r.val = s.val + 1 := ⟨⟨_, by omega⟩, rfl⟩
    obtain ⟨r2, hr2⟩ : ∃ r : Fin 515, r.val = s.val + 2 := ⟨⟨_, by omega⟩, rfl⟩
    obtain ⟨r3, hr3⟩ : ∃ r : Fin 515, r.val = s.val + 3 := ⟨⟨_, by omega⟩, rfl⟩
    have e : outOf (F := Ideal) d (Layout.block ⟨3, ![4, 512, 256]⟩ ⟨3, ![4, 2048, 256]⟩ 1 4 d X) K (Layout.block ⟨3, ![4, 512, 256]⟩ ⟨3, ![4, 2048, 256]⟩ 1 4 (prv d) X) (ix3 b s ch)
        = fullOf (F := Ideal) (Layout.block ⟨3, ![4, 512, 256]⟩ ⟨3, ![4, 2048, 256]⟩ 1 4 d X) K (ix3 b s ch) := dif_neg hlt
    rw [e, fullOf_apply, act_eq, accOf_pad _ K b s ch r0 r1 r2 r3 hr0 hr1 hr2 hr3,
      own_row d X b ch r0 (by omega) R0 (by omega), own_row d X b ch r1 (by omega) R1 (by omega),
      own_row d X b ch r2 (by omega) R2 (by omega), own_row d X b ch r3 (by omega) R3 (by omega)]
    exact congrArg refAct (sum_plain _ _ _ _)

open Idealize.ShloMosaic in
/-- Device d's result block, computed from its own block, the taps and the block of the device before it, is block d of
    the one-device result. -/
theorem block_eq
    (X : (⟨Cert.ReferenceIdeal.S4x2048x256, .f32⟩ : BufTy).Contents (Elt Ideal))
    (K : (⟨Cert.ReferenceIdeal.S4x256, .f32⟩ : BufTy).Contents (Elt Ideal))
    (c : Dev Cert.KernelIdeal.nD) :
    Cert.KernelIdeal.Halo.outOf (F := Ideal) c
        (Layout.block ⟨3, ![4, 512, 256]⟩ ⟨3, ![4, 2048, 256]⟩ 1 4 c X) K
        (Layout.block ⟨3, ![4, 512, 256]⟩ ⟨3, ![4, 2048, 256]⟩ 1 4 (Cert.KernelIdeal.Halo.prv c) X)
      = Layout.block ⟨3, ![4, 512, 256]⟩ ⟨3, ![4, 2048, 256]⟩ 1 4 c (Cert.ReferenceIdeal.Read.val_main_v35 (F := Ideal) X K) := by
  funext j
  obtain ⟨b, s, ch, rfl⟩ : ∃ (b : Fin 4) (s : Fin 512) (ch : Fin 256), j = ix3 b s ch := ⟨j 0, j 1, j 2, eq_ix3 j⟩
  exact entry_eq X K c b s ch

end Cert.Proof.Bridge

end
-- ==== Proof.lean ====
/-
  The five claims of the certificate, assembled.

  On each of four devices the kernel computes a causal four-tap convolution along the sequence axis of its own block of
  512 rows, sends the block's last three rows to the device after it, and redoes its first three rows with the three rows
  it receives (the first device with zeros); every entry is then multiplied by its logistic. The run of the whole mesh
  ends with each device's result a pure function of its own block, the taps and the block before it; that function, read
  at the blocks of one whole array, is the block of the one-device reference's result: the same convolution over 2048
  rows with three zero rows in front, divided by 1 + exp(−·). The two agree on every extended real: the sums differ by
  zero terms and regrouping, and y · (1 / (1 + e^(−y))) is y / (1 + e^(−y)) because the divisor is never zero.
  The three frames are the runs with the values dropped; the idealization rewrote nothing.
-/
import proofs.«900354_g7700000000000355_dist_gconv1d_seqshard_i_b4_s512_c256_v7x_i4_f32_1_alg».proof.Defs
import proofs.«900354_g7700000000000355_dist_gconv1d_seqshard_i_b4_s512_c256_v7x_i4_f32_1_alg».proof.Proof.Gen.Kernel
import proofs.«900354_g7700000000000355_dist_gconv1d_seqshard_i_b4_s512_c256_v7x_i4_f32_1_alg».proof.Proof.Gen.KernelIdeal
import proofs.«900354_g7700000000000355_dist_gconv1d_seqshard_i_b4_s512_c256_v7x_i4_f32_1_alg».proof.Proof.Gen.ReferenceIdeal
import proofs.«900354_g7700000000000355_dist_gconv1d_seqshard_i_b4_s512_c256_v7x_i4_f32_1_alg».proof.Proof.Gen.Pre_finite_inputs_Kernel
import proofs.«900354_g7700000000000355_dist_gconv1d_seqshard_i_b4_s512_c256_v7x_i4_f32_1_alg».proof.Proof.Gen.Pre_finite_inputs_ReferenceIdeal
import proofs.«900354_g7700000000000355_dist_gconv1d_seqshard_i_b4_s512_c256_v7x_i4_f32_1_alg».proof.Proof.RefFrame
import proofs.«900354_g7700000000000355_dist_gconv1d_seqshard_i_b4_s512_c256_v7x_i4_f32_1_alg».proof.Proof.Final
import proofs.«900354_g7700000000000355_dist_gconv1d_seqshard_i_b4_s512_c256_v7x_i4_f32_1_alg».proof.Proof.KFinal
import proofs.«900354_g7700000000000355_dist_gconv1d_seqshard_i_b4_s512_c256_v7x_i4_f32_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its argument arrays as it found them. -/
theorem frame_k : Cert.frame_Kernel (hKernel := Cert.Kernel.Gen.facts) (hPre_finite_inputs_Kernel := Cert.Pre_finite_inputs_Kernel.Gen.facts) := fun m ρ _ =>
  (θ_run Cert.Kernel.defs _ _).mono (fun _ h c => (h c).2) (Cert.Kernel.Halo.run_value (F := Bits) m ρ)

/-- So does the idealized kernel. -/
theorem frame_ki : Cert.frame_KernelIdeal (hKernelIdeal := Cert.KernelIdeal.Gen.facts) (hPre_finite_inputs_Kernel := Cert.Pre_finite_inputs_Kernel.Gen.facts) := fun m ρ _ =>
  (θ_run Cert.KernelIdeal.defs _ _).mono (fun _ h c => (h c).2) (Cert.KernelIdeal.Halo.run_value (F := Ideal) m ρ)

/-- From memories where each device holds its block of the reference's sequence array and a copy of the taps, both
    programs run, and each device's result is its block of the reference's result. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨Cert.ReferenceIdeal.Read.val_main_v35 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h c).1.trans ?_, (h c).2⟩) (Cert.KernelIdeal.Halo.run_value (F := Ideal) m ρ)
    unfold Cert.KernelIdeal.Halo.xOf Cert.KernelIdeal.Halo.kOf
    rw [(hagree c).1, (hagree c).2, (hagree (Cert.KernelIdeal.Halo.prv c)).1]
    exact Cert.Proof.Bridge.block_eq _ _ c
  · exact (θ_run Cert.ReferenceIdeal.defs _ _).mono
      (fun _ h => ⟨(h 0).1.trans (Cert.ReferenceIdeal.Read.val_main_v35_eq m' 0), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, Cert.Proof.RefSide.frame_ref, trivial, algebraic⟩

end Cert.Proof

end
